-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S16x8 .f32) (main_arg6 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg5
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x16 .f32) (main_arg4 : FVec F S16 .f32) (main_arg5 : FVec F S16x8 .f32) (main_arg6 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x16 : Shape := ⟨2, ![100000, 16]⟩
abbrev S10000x128 : Shape := ⟨2, ![10000, 128]⟩
abbrev S10000x16 : Shape := ⟨2, ![10000, 16]⟩
abbrev S1600000x16 : Shape := ⟨2, ![1600000, 16]⟩
abbrev S100000x1 : Shape := ⟨2, ![100000, 1]⟩
abbrev S1x16 : Shape := ⟨2, ![1, 16]⟩
abbrev S100000x8 : Shape := ⟨2, ![100000, 8]⟩
abbrev S10000x8 : Shape := ⟨2, ![10000, 8]⟩
abbrev S1600000x8 : Shape := ⟨2, ![1600000, 8]⟩
abbrev S1x8 : Shape := ⟨2, ![1, 8]⟩

abbrev nBuf : Space → Nat
  | .hbm => 94
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x16, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x16, .f32⟩
  | .hbm, ⟨56, _⟩ => ⟨S1600000x1, .f32⟩
  | .hbm, ⟨57, _⟩ => ⟨S1600000x16, .f32⟩
  | .hbm, ⟨58, _⟩ => ⟨S1600000x16, .f32⟩
  | .hbm, ⟨59, _⟩ => ⟨S_, .f32⟩
  | .hbm, ⟨60, _⟩ => ⟨S100000x16, .f32⟩
  | .hbm, ⟨61, _⟩ => ⟨S1600000x1, .i32⟩
  | .hbm, ⟨62, _⟩ => ⟨S100000x16, .f32⟩
  | .hbm, ⟨63, _⟩ => ⟨S100000, .f32⟩
  | .hbm, ⟨64, _⟩ => ⟨S100000x1, .f32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S1x16, .f32⟩
  | .hbm, ⟨69, _⟩ => ⟨S100000x8, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x8, .f32⟩
  | .hbm, ⟨79, _⟩ => ⟨S1600000x1, .f32⟩
  | .hbm, ⟨80, _⟩ => ⟨S1600000x8, .f32⟩
  | .hbm, ⟨81, _⟩ => ⟨S1600000x8, .f32⟩
  | .hbm, ⟨82, _⟩ => ⟨S_, .f32⟩
  | .hbm, ⟨83, _⟩ => ⟨S100000x8, .f32⟩
  | .hbm, ⟨84, _⟩ => ⟨S1600000x1, .i32⟩
  | .hbm, ⟨85, _⟩ => ⟨S100000x8, .f32⟩
  | .hbm, ⟨86, _⟩ => ⟨S100000, .f32⟩
  | .hbm, ⟨87, _⟩ => ⟨S100000x1, .f32⟩
  | .hbm, ⟨88, _⟩ => ⟨S100000x8, .f32⟩
  | .hbm, ⟨89, _⟩ => ⟨S100000x8, .f32⟩
  | .hbm, ⟨90, _⟩ => ⟨S100000x8, .f32⟩
  | .hbm, ⟨91, _⟩ => ⟨S1x8, .f32⟩
  | .hbm, ⟨92, _⟩ => ⟨S100000x8, .f32⟩
  | .hbm, ⟨93, _⟩ => ⟨S100000x8, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x8, .f32⟩
  | .local _ .vmem, ⟨9, _⟩ => ⟨S10000x8, .f32⟩
  | .local _ .vmem, ⟨10, _⟩ => ⟨S10000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x16_S10000x16_1_0_0_1_n_n_wf : DotDims.WF S10000x128 S128x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x8_S10000x8_1_0_0_1_n_n_wf : DotDims.WF S10000x16 S16x8 S10000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S100000x8.size a
  hwx1_3 : ∀ i : grid1.Coords, EltTy.bits .f32 = 32 ∨ (Rect.block (s := S100000x8) S10000x8.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S100000x16 : Shape := ⟨2, ![100000, 16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x8 : Shape := ⟨2, ![100000, 8]⟩
abbrev S1700000x8 : Shape := ⟨2, ![1700000, 8]⟩
abbrev S1x8 : Shape := ⟨2, ![1, 8]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x16, .f32⟩
  | 4 => ⟨S16, .f32⟩
  | 5 => ⟨S16x8, .f32⟩
  | 6 => ⟨S8, .f32⟩
  | 7 => ⟨S1x1600000, .i32⟩
  | 8 => ⟨S1600000, .i32⟩
  | 9 => ⟨S1x1600000, .i32⟩
  | 10 => ⟨S1600000, .i32⟩
  | 11 => ⟨S100000x16, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x16, .f32⟩
  | 59 => ⟨S1700000x1, .f32⟩
  | 60 => ⟨S1700000x16, .f32⟩
  | 61 => ⟨S1700000x16, .f32⟩
  | 62 => ⟨S_, .f32⟩
  | 63 => ⟨S100000x16, .f32⟩
  | 64 => ⟨S1700000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x8, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x8, .f32⟩
  | 120 => ⟨S1700000x1, .f32⟩
  | 121 => ⟨S1700000x8, .f32⟩
  | 122 => ⟨S1700000x8, .f32⟩
  | 123 => ⟨S_, .f32⟩
  | 124 => ⟨S100000x8, .f32⟩
  | 125 => ⟨S1700000x1, .i32⟩
  | 126 => ⟨S100000x8, .f32⟩
  | 127 => ⟨S1x8, .f32⟩
  | _ => ⟨S100000x128, .f32⟩

abbrev hbmTy0_1 (i : Nat) : BufTy := match i % 128 with
  | 0 => ⟨S100000x8, .f32⟩
  | 1 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x128_S128x16_S100000x16_1_0_0_1_n_n_wf : DotDims.WF S100000x128 S128x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x8_S100000x8_1_0_0_1_n_n_wf : DotDims.WF S100000x16 S16x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.KernelRun.lean ====
/-
  The idealized kernel's run with its result named.

  Every weakly fair execution of the program — three stretches of host operations, the first matrix-product region, a
  stretch of host operations, the second region, a last stretch — terminates without a fault, leaves the seven
  argument arrays as launched, and leaves in the result buffer the contents that the fold of the segments computes for
  it: the last stretch's operations applied to what the second region's write-backs left. The statement is the frame's
  with one more conjunct, the result buffer read against the same last thread state.
-/
import proofs.«121270_j17154099380376_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Run

end
-- ==== Proof.GcnOps.lean ====
/-
  The operations of a graph-convolution layer on a graph with weighted edges, as whole-array functions of the edge
  arrays, for ANY number `n` of edges: 100000 nodes; `s d : [n]` the edges' end points as 32-bit words, `w : [n]`
  their weights.

  * `startIdx v`: the words `v` prepared for a row lookup — a negative word raised once by the number of nodes —, laid
    out as an `[n, 1]` column of start indices.
  * `degSum d w`: the weighted in-degree, node `i` ↦ the sum of `w e` over the edges `e` whose word `d e` is `i`
    (an accumulating scatter into zero; a word outside `[0, 100000)` lands nowhere).
  * `invSqrtDeg deg`: `deg^(-1/2)` where `deg > 0`, zero elsewhere.
  * `edgeNorm dis s d w`: edge `e` ↦ `dis (s e) · w e · dis (d e)`, the symmetric normalisation.
  * `aggSum h s d nrm`: node `i`, feature `c` ↦ the sum of `h (s e, c) · nrm e` over the edges `e` into `i`.
  * `selfLoop h dis`: `(i, c)` ↦ `h (i, c) · (dis i · dis i)`, what a unit-weight edge from `i` to itself adds.
-/
import Idealize.ShloMosaic.PureOps.Ideal.Laws
import Idealize.ShloMosaic.Lib.Pipeline.Value
import Idealize.ShloMosaic.Lib.ValueIdx

noncomputable section

namespace Cert.Gcn

open Idealize.ShloMosaic Idealize.ShloMosaic.ValueIdx

/-- A scalar. -/
abbrev Sc : Shape := ⟨0, ![]⟩
/-- One entry per node. -/
abbrev Nd : Shape := ⟨1, ![100000]⟩
/-- One entry per node, as a column. -/
abbrev Nd1 : Shape := ⟨2, ![100000, 1]⟩
/-- `C` features per node. -/
abbrev NdC (C : ℕ) : Shape := ⟨2, ![100000, C]⟩
/-- One entry per edge. -/
abbrev Ed (n : ℕ) : Shape := ⟨1, ![n]⟩
/-- One entry per edge, as a column. -/
abbrev Ed1 (n : ℕ) : Shape := ⟨2, ![n, 1]⟩
/-- `C` features per edge. -/
abbrev EdC (n C : ℕ) : Shape := ⟨2, ![n, C]⟩

section Ops
variable {n : ℕ}

/-- The words `v` as start indices of a row lookup: a negative word is raised once by the number of nodes. -/
def startIdx (h0 : Sc.BroadcastsInDim (Ed n) ![]) (h1 : (Ed n).BroadcastsInDim (Ed1 n) ![0]) (v : IVec (Ed n) 32) :
    IVec (Ed1 n) 32 :=
  broadcastInDim (Ed1 n) ![0] h1
    (select (cmpi .slt v (broadcastInDim (Ed n) ![] h0 (constantI Sc 32 0#32)))
      (addi v (broadcastInDim (Ed n) ![] h0 (constantI Sc 32 100000#32))) v)

/-- The weighted in-degree: the weights summed into the nodes the words `d` name, from zero. -/
def degSum (sd : ScatterDims Nd (Ed1 n) (Ed n)) (hz : Sc.BroadcastsInDim Nd ![])
    (h1 : (Ed n).BroadcastsInDim (Ed1 n) ![0]) (d : IVec (Ed n) 32) (w : FVec Ideal (Ed n) .f32) : FVec Ideal Nd .f32 :=
  Host.scatterAdd sd (broadcastInDim Nd ![] hz (constant Sc .f32 0x00000000#32)) (broadcastInDim (Ed1 n) ![0] h1 d) w

/-- `deg^(-1/2)` where the degree is positive, zero elsewhere. -/
def invSqrtDeg (hz : Sc.BroadcastsInDim Nd ![]) (deg : FVec Ideal Nd .f32) : FVec Ideal Nd .f32 :=
  select (cmpf .ogt deg (broadcastInDim Nd ![] hz (constant Sc .f32 0x00000000#32))) (Host.rsqrt deg)
    (broadcastInDim Nd ![] hz (constant Sc .f32 0x00000000#32))

/-- The symmetric normalisation of the edges: `dis (s e) · w e · dis (d e)`. -/
def edgeNorm (gd : GatherDims Nd (Ed1 n) (Ed n)) (h0 : Sc.BroadcastsInDim (Ed n) ![])
    (h1 : (Ed n).BroadcastsInDim (Ed1 n) ![0]) (dis : FVec Ideal Nd .f32) (s d : IVec (Ed n) 32)
    (w : FVec Ideal (Ed n) .f32) : FVec Ideal (Ed n) .f32 :=
  mulf (mulf (Host.gather gd dis (startIdx h0 h1 s)) w) (Host.gather gd dis (startIdx h0 h1 d))

/-- The messages `h (s e, ·) · nrm e` summed into the nodes the words `d` name, from zero. -/
def aggSum {C : ℕ} (sd : ScatterDims (NdC C) (Ed1 n) (EdC n C)) (gd : GatherDims (NdC C) (Ed1 n) (EdC n C))
    (hz : Sc.BroadcastsInDim (NdC C) ![]) (h0 : Sc.BroadcastsInDim (Ed n) ![])
    (h1 : (Ed n).BroadcastsInDim (Ed1 n) ![0]) (h2 : (Ed1 n).BroadcastsInDim (EdC n C) ![0, 1])
    (h : FVec Ideal (NdC C) .f32) (s d : IVec (Ed n) 32) (nrm : FVec Ideal (Ed n) .f32) : FVec Ideal (NdC C) .f32 :=
  Host.scatterAdd sd (broadcastInDim (NdC C) ![] hz (constant Sc .f32 0x00000000#32)) (broadcastInDim (Ed1 n) ![0] h1 d)
    (mulf (Host.gather gd h (startIdx h0 h1 s))
      (broadcastInDim (EdC n C) ![0, 1] h2 (broadcastInDim (Ed1 n) ![0] h1 nrm)))

end Ops

/-- What a unit-weight edge from each node to itself adds: `h (i, c) · (dis i · dis i)`. -/
def selfLoop {C : ℕ} (hc1 : Nd.BroadcastsInDim Nd1 ![0]) (hc2 : Nd1.BroadcastsInDim (NdC C) ![0, 1])
    (h : FVec Ideal (NdC C) .f32) (dis : FVec Ideal Nd .f32) : FVec Ideal (NdC C) .f32 :=
  mulf h (broadcastInDim (NdC C) ![0, 1] hc2 (broadcastInDim Nd1 ![0] hc1 (mulf dis dis)))

/-- A bias per feature added to every node's row. -/
def addBias {C : ℕ} (hb1 : (⟨1, ![C]⟩ : Shape).BroadcastsInDim ⟨2, ![1, C]⟩ ![1])
    (hb2 : (⟨2, ![1, C]⟩ : Shape).BroadcastsInDim (NdC C) ![0, 1]) (x : FVec Ideal (NdC C) .f32)
    (b : FVec Ideal ⟨1, ![C]⟩ .f32) : FVec Ideal (NdC C) .f32 :=
  addf x (broadcastInDim (NdC C) ![0, 1] hb2 (broadcastInDim ⟨2, ![1, C]⟩ ![1] hb1 b))

end Cert.Gcn

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.MatmulRegion.lean ====
/-
  The first row-blocked region: a matrix product computed ten thousand rows at a time.

  The region walks ten grid points. At point `t` it takes rows `10000·t … 10000·t + 9999` of the left array
  `a : [100000, 128]`, the whole right array `w : [128, 16]`, multiplies them into a zero accumulator (the rounding to
  the narrower float type is the identity on the extended reals) and writes the `[10000, 16]` product to the same rows of the
  result. Row `r` of the result is written by point `r / 10000` and depends on row `r` of `a` only, so the result array
  after the last point is the product of the two whole arrays: entry `(r, q)` is `∑ k, a (r, k) · w (k, q)`.
-/
import proofs.«121270_j17154099380376_2_alg».proof.Proof.Gen.KernelIdeal.Frame
import proofs.«121270_j17154099380376_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MatmulRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product of a `[100000, 128]` array and a `[128, 16]` array, entry by entry. -/
def product (a : S100000x128.Idx → EReal) (w : S128x16.Idx → EReal) : S100000x16.Idx → EReal :=
  fun i => ∑ k : Fin 128, a (ix2 (i 0) k) * w (ix2 k (i 1))

theorem zero_offsets : (![0, 0] : Fin 2 → Nat) = fun _ => 0 := funext fun a => by fin_cases a <;> rfl

/-- The body's product of a block of rows and the right array, at an entry of the block. -/
theorem block_product_apply (x0 : Vec Ideal S10000x128 .f32) (x1 : Vec Ideal S128x16 .f32) (p : Fin 10000) (q : Fin 16) :
    k0_pay1 x0 x1 (ix2 p q) = ∑ k : Fin 128, x0 (ix2 p k) * x1 (ix2 k q) := by
  unfold k0_pay1
  exact Cert.LibPlainMatmul.matmul_plain_zero_apply (M := 10000) (K := 128) (N := 16)
    dot_S10000x128_S128x16_S10000x16_1_0_0_1_n_n rfl none x0 x1 p q

/-- The body's product on a block whose rows are rows `off, off + 1, …` of `a`, at an entry of the block, is the entry of
    the whole product in the same row of `a`. -/
theorem block_product_rows (a : S100000x128.Idx → EReal) (w : S128x16.Idx → EReal)
    (x0 : Vec Ideal S10000x128 .f32) (x1 : Vec Ideal S128x16 .f32) (off : ℕ)
    (h0 : ∀ (p : Fin 10000) (P : Fin 100000), P.val = off + p.val → ∀ k : Fin 128, x0 (ix2 p k) = a (ix2 P k))
    (h1 : ∀ (k : Fin 128) (q : Fin 16), x1 (ix2 k q) = w (ix2 k q))
    (j : S10000x16.Idx) (i : S100000x16.Idx) (hi0 : (i 0).val = off + (j 0).val) (hi1 : (i 1).val = (j 1).val) :
    k0_pay1 x0 x1 j = product a w i := by
  have hj : j = ix2 (j 0) (j 1) := eq_ix2 j
  rw [hj]
  refine (block_product_apply x0 x1 (j 0) (j 1)).trans ?_
  unfold product
  have hq : (i 1 : Fin 16) = j 1 := Fin.ext hi1
  refine Finset.sum_congr rfl fun k _ => ?_
  rw [h0 (j 0) (i 0) hi0 k, h1 k (j 1), hq]

/-- The windows' block indices, decided over the ten grid points: the left array's and the result's row blocks are the
    point's number, every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array's block at point `t`, at an entry, is the array at the entry `10000·t` rows further down. -/
theorem left_block_apply (c : Dev nD) (t : Fin cfg0.N) (x : S10000x128.Idx) (k : S100000x128.Idx)
    (hk0 : (k 0).val = t.val * 10000 + (x 0).val) (hk1 : (k 1).val = (x 1).val) :
    (iblk0 V c 0 t : Vec Ideal S10000x128 .f32) x = (V c main_arg0 : S100000x128.Idx → EReal) k := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The right array's block at every point is the whole array. -/
theorem right_block_apply (c : Dev nD) (t : Fin cfg0.N) (x : S128x16.Idx) :
    (iblk0 V c 1 t : Vec Ideal S128x16 .f32) x = (V c main_arg3 : S128x16.Idx → EReal) x := by
  obtain ⟨-, -, e2, e3, -, -⟩ := index_facts t
  unfold iblk0
  rw [View.read_apply]
  show V c main_arg3 _ = V c main_arg3 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 16 + 1 * (x 1).val = (x 1).val; rw [e3]; omega

/-- What point `t` writes back is block `t` of the product of the two arrays as the region finds them. -/
theorem flushed_eq (c : Dev nD) (t : Fin cfg0.N) :
    (dat0 (F := Ideal) V c).flushed 2 t
      = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x16) zero_offsets]
  obtain ⟨-, -, -, -, e4, e5⟩ := index_facts t
  funext j
  show k0_pay1 (iblk0 V c 0 t) (iblk0 V c 1 t) j
    = product (V c main_arg0) (V c main_arg3) (((cfg0.win 2).blk t).view.emb j)
  refine block_product_rows (V c main_arg0) (V c main_arg3) (iblk0 V c 0 t) (iblk0 V c 1 t) (t.val * 10000)
    (fun p P hP k => left_block_apply V c t (ix2 p k) (ix2 P k) hP rfl)
    (fun k q => right_block_apply V c t (ix2 k q)) j _ ?_ ?_
  · show win0_2.index t (0 : Fin 2) * 10000 + 1 * (j 0).val = t.val * 10000 + (j 0).val
    rw [e4]; omega
  · show win0_2.index t (1 : Fin 2) * 16 + 1 * (j 1).val = (j 1).val
    rw [e5]; omega

/-- An index of the result is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v29).slice (win0_2.rect t)).set ↔ _
  rw [View.set_slice_whole, Rect.mem_set_unit]
  exact Iff.rfl

/-- Every row of the result is in some point's block: row `r` in that of point `r / 10000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  obtain ⟨-, -, -, -, e4, e5⟩ := index_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 16 ≤ (i 1).val ∧ (i 1).val < win0_2.index t (1 : Fin 2) * 16 + 16; rw [e5]; omega

/-- THE REGION: after its last point the result array is the product of the two arrays the region was entered with. -/
theorem matmul_region (c : Dev nD) :
    (dat0 (F := Ideal) V c).arrAt 2 cfg0.N = product (V c main_arg0) (V c main_arg3) :=
  (dat0 (F := Ideal) V c).arrAt_eq_of_cover 2 (product (V c main_arg0) (V c main_arg3)) (fun t _ => flushed_eq V c t) covered

/-- The product at the entry `(p, q)`. -/
theorem product_apply (a : S100000x128.Idx → EReal) (w : S128x16.Idx → EReal) (p : Fin 100000) (q : Fin 16) :
    product a w (ix2 p q) = ∑ k : Fin 128, a (ix2 p k) * w (ix2 k q) := rfl

/-- The same, with the two arrays the region was entered with named: the result array, index by index. -/
theorem matmul_region_of (c : Dev nD) (a : S100000x128.Idx → EReal) (w : S128x16.Idx → EReal)
    (ha : V c main_arg0 = a) (hw : V c main_arg3 = w) :
    (dat0 (F := Ideal) V c).arrAt 2 cfg0.N
      = fun i : S100000x16.Idx => ∑ k : Fin 128, a (ix2 (i 0) k) * w (ix2 k (i 1)) := by
  subst ha hw
  exact matmul_region V c

end Cert.KernelIdeal.MatmulRegion

end
-- ==== Proof.BiasReluRegion.lean ====
/-
  The second row-blocked region: bias, rectifier and a matrix product, ten thousand rows at a time.

  The region walks ten grid points. At point `t` it takes rows `10000·t … 10000·t + 9999` of the array
  `x : [100000, 16]`, the whole bias row `b : [1, 16]` and the whole weight array `w : [16, 8]`; it adds the bias row to
  every row of the block, clamps every entry below at zero, multiplies the result by `w` into a zero accumulator (the rounding
  to the narrower float type is the identity on the extended reals) and writes the `[10000, 8]` product to the same rows of
  the result. Row `r` of the result is written by point `r / 10000` and depends on row `r` of `x` only, so the result array
  after the last point has, at `(r, q)`, the entry `∑ k, max (x (r, k) + b (0, k)) 0 · w (k, q)`.
-/
import proofs.«121270_j17154099380376_2_alg».proof.Proof.Gen.KernelIdeal.Frame
import proofs.«121270_j17154099380376_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.BiasReluRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The rectified, biased rows of a `[100000, 16]` array multiplied by a `[16, 8]` array, entry by entry. -/
def biasReluProduct (x : S100000x16.Idx → EReal) (b : S1x16.Idx → EReal) (w : S16x8.Idx → EReal) : S100000x8.Idx → EReal :=
  fun i => ∑ k : Fin 16, max (x (ix2 (i 0) k) + b (ix2 (0 : Fin 1) k)) 0 * w (ix2 k (i 1))

theorem zero_offsets : (![0, 0] : Fin 2 → Nat) = fun _ => 0 := funext fun a => by fin_cases a <;> rfl

/-- A block of rows plus the bias row broadcast over the rows, clamped below at zero, at an entry. -/
theorem hidden_apply (x0 : Vec Ideal S10000x16 .f32) (x1 : Vec Ideal S1x16 .f32) (p : Fin 10000) (k : Fin 16) :
    maximumf (addf (shapeCast S10000x16 x0 shapeCasts_S10000x16_S10000x16)
        (broadcastTo S10000x16 (shapeCast S1x16 x1 shapeCasts_S1x16_S1x16) broadcasts_S1x16_S10000x16))
      (broadcast S10000x16 (Scalar.ofBits (F := Ideal) .f32 0x00000000#32)) (ix2 p k)
      = max (x0 (ix2 p k) + x1 (ix2 (0 : Fin 1) k)) 0 := by
  show max (shapeCast S10000x16 x0 shapeCasts_S10000x16_S10000x16 (ix2 p k)
      + broadcastTo S10000x16 (shapeCast S1x16 x1 shapeCasts_S1x16_S1x16) broadcasts_S1x16_S10000x16 (ix2 p k))
      (Ideal.ofBits .f32 0x00000000#32) = _
  rw [shapeCast_self, broadcastTo_1b_ab_apply (a := 10000) (b := 16), shapeCast_self, Ideal.ofBits_zero_f32]

/-- The body's product on a block of rows, at an entry of the block. -/
theorem block_product_apply (x0 : Vec Ideal S10000x16 .f32) (x1 : Vec Ideal S1x16 .f32) (x2 : Vec Ideal S16x8 .f32)
    (p : Fin 10000) (q : Fin 8) :
    k1_pay1 x0 x1 x2 (ix2 p q) = ∑ k : Fin 16, max (x0 (ix2 p k) + x1 (ix2 (0 : Fin 1) k)) 0 * x2 (ix2 k q) := by
  unfold k1_pay1
  refine (Cert.LibPlainMatmul.matmul_plain_zero_apply (M := 10000) (K := 16) (N := 8) (φ₁ := .bf16) (φ₂ := .bf16)
    dot_S10000x16_S16x8_S10000x8_1_0_0_1_n_n rfl none _ x2 p q).trans ?_
  refine Finset.sum_congr rfl fun k _ => ?_
  exact congrArg (· * x2 (ix2 k q)) (hidden_apply x0 x1 p k)

/-- The body's product on a block whose rows are rows `off, off + 1, …` of `x`, at an entry of the block, is the entry of
    the whole array's product in the same row of `x`. -/
theorem block_product_rows (x : S100000x16.Idx → EReal) (b : S1x16.Idx → EReal) (w : S16x8.Idx → EReal)
    (x0 : Vec Ideal S10000x16 .f32) (x1 : Vec Ideal S1x16 .f32) (x2 : Vec Ideal S16x8 .f32) (off : ℕ)
    (h0 : ∀ (p : Fin 10000) (P : Fin 100000), P.val = off + p.val → ∀ k : Fin 16, x0 (ix2 p k) = x (ix2 P k))
    (h1 : ∀ k : Fin 16, x1 (ix2 (0 : Fin 1) k) = b (ix2 (0 : Fin 1) k))
    (h2 : ∀ (k : Fin 16) (q : Fin 8), x2 (ix2 k q) = w (ix2 k q))
    (j : S10000x8.Idx) (i : S100000x8.Idx) (hi0 : (i 0).val = off + (j 0).val) (hi1 : (i 1).val = (j 1).val) :
    k1_pay1 x0 x1 x2 j = biasReluProduct x b w i := by
  have hj : j = ix2 (j 0) (j 1) := eq_ix2 j
  rw [hj]
  refine (block_product_apply x0 x1 x2 (j 0) (j 1)).trans ?_
  unfold biasReluProduct
  have hq : (i 1 : Fin 8) = j 1 := Fin.ext hi1
  refine Finset.sum_congr rfl fun k _ => ?_
  rw [h0 (j 0) (i 0) hi0 k, h1 k, h2 k (j 1), hq]

/-- The windows' block indices, decided over the ten grid points: the row-blocked array's and the result's row blocks are
    the point's number, every other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row-blocked array's block at point `t`, at an entry, is the array at the entry `10000·t` rows further down. -/
theorem rows_block_apply (c : Dev nD) (t : Fin cfg1.N) (y : S10000x16.Idx) (k : S100000x16.Idx)
    (hk0 : (k 0).val = t.val * 10000 + (y 0).val) (hk1 : (k 1).val = (y 1).val) :
    (iblk1 V c 0 t : Vec Ideal S10000x16 .f32) y = (V c main_v47 : S100000x16.Idx → EReal) k := by
  obtain ⟨e0, e1, -, -, -, -, -, -⟩ := index_facts t
  unfold iblk1
  rw [View.read_apply]
  show V c main_v47 _ = V c main_v47 _
  congr 1
  funext a
  apply Fin.ext
  match a with
  | ⟨0, _⟩ => show win1_0.index t (0 : Fin 2) * 10000 + 1 * (y 0).val = (k 0).val; rw [e0, hk0]; omega
  | ⟨1, _⟩ => show win1_0.index t (1 : Fin 2) * 16 + 1 * (y 1).val = (k 1).val; rw [e1, hk1]; omega

/-- The bias row's block at every point is the whole row. -/
theorem bias_block_apply (c : Dev nD) (t : Fin cfg1.N) (y : S1x16.Idx) :
    (iblk1 V c 1 t : Vec Ideal S1x16 .f32) y = (V c main_v48 : S1x16.Idx → EReal) y := by
  obtain ⟨-, -, e2, e3, -, -, -, -⟩ := index_facts t
  unfold iblk1
  rw [View.read_apply]
  show V c main_v48 _ = V c main_v48 _
  congr 1
  funext a
  apply Fin.ext
  match a with
  | ⟨0, _⟩ => show win1_1.index t (0 : Fin 2) * 1 + 1 * (y 0).val = (y 0).val; rw [e2]; omega
  | ⟨1, _⟩ => show win1_1.index t (1 : Fin 2) * 16 + 1 * (y 1).val = (y 1).val; rw [e3]; omega

/-- The weight array's block at every point is the whole array. -/
theorem weight_block_apply (c : Dev nD) (t : Fin cfg1.N) (y : S16x8.Idx) :
    (iblk1 V c 2 t : Vec Ideal S16x8 .f32) y = (V c main_arg5 : S16x8.Idx → EReal) y := by
  obtain ⟨-, -, -, -, e4, e5, -, -⟩ := index_facts t
  unfold iblk1
  rw [View.read_apply]
  show V c main_arg5 _ = V c main_arg5 _
  congr 1
  funext a
  apply Fin.ext
  match a with
  | ⟨0, _⟩ => show win1_2.index t (0 : Fin 2) * 16 + 1 * (y 0).val = (y 0).val; rw [e4]; omega
  | ⟨1, _⟩ => show win1_2.index t (1 : Fin 2) * 8 + 1 * (y 1).val = (y 1).val; rw [e5]; omega

/-- What point `t` writes back is block `t` of the whole array's product, of the arrays as the region finds them. -/
theorem flushed_eq (c : Dev nD) (t : Fin cfg1.N) :
    (dat1 (F := Ideal) V c).flushed 3 t
      = ((cfg1.win 3).blk t).view.read (Elt Ideal) (biasReluProduct (V c main_v47) (V c main_v48) (V c main_arg5)) := by
  show (cfg1.win 3).cut (grid1.coords t) ((dat1 V c).after 3 t) = _
  rw [after1_3]
  unfold out1_3
  rw [View.canon_unit_zero zero_offsets]
  simp only [View.ld_unit_zero (S := S10000x16) zero_offsets, View.ld_unit_zero (S := S1x16) zero_offsets,
    View.ld_unit_zero (S := S16x8) zero_offsets]
  obtain ⟨-, -, -, -, -, -, e6, e7⟩ := index_facts t
  funext j
  show k1_pay1 (iblk1 V c 0 t) (iblk1 V c 1 t) (iblk1 V c 2 t) j
    = biasReluProduct (V c main_v47) (V c main_v48) (V c main_arg5) (((cfg1.win 3).blk t).view.emb j)
  refine block_product_rows (V c main_v47) (V c main_v48) (V c main_arg5)
    (iblk1 V c 0 t) (iblk1 V c 1 t) (iblk1 V c 2 t) (t.val * 10000)
    (fun p P hP k => rows_block_apply V c t (ix2 p k) (ix2 P k) hP rfl)
    (fun k => bias_block_apply V c t (ix2 (0 : Fin 1) k))
    (fun k q => weight_block_apply V c t (ix2 k q)) j _ ?_ ?_
  · show win1_3.index t (0 : Fin 2) * 10000 + 1 * (j 0).val = t.val * 10000 + (j 0).val
    rw [e6]; omega
  · show win1_3.index t (1 : Fin 2) * 8 + 1 * (j 1).val = (j 1).val
    rw [e7]; omega

/-- An index of the result is in point `t`'s block iff each coordinate is in the block's range on its axis. -/
theorem mem_blk (t : Fin cfg1.N) (i : S100000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v49).slice (win1_3.rect t)).set ↔ _
  rw [View.set_slice_whole, Rect.mem_set_unit]
  exact Iff.rfl

/-- Every row of the result is in some point's block: row `r` in that of point `r / 10000`. -/
theorem covered (i : S100000x8.Idx) :
    ∃ t : Fin cfg1.N, (cfg1.win 3).flush t = true ∧ i ∈ ((cfg1.win 3).blk t).view.set := by
  have hi0 : (i 0).val < 100000 := (i 0).isLt
  have hi1 : (i 1).val < 8 := (i 1).isLt
  have hN : cfg1.N = 10 := N_1
  let t : Fin cfg1.N := ⟨(i 0).val / 10000, by rw [hN]; omega⟩
  obtain ⟨-, -, -, -, -, -, e6, e7⟩ := index_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; rw [e6, ht]; omega
  | ⟨1, _⟩ => show win1_3.index t (1 : Fin 2) * 8 ≤ (i 1).val ∧ (i 1).val < win1_3.index t (1 : Fin 2) * 8 + 8; rw [e7]; omega

/-- THE REGION: after its last point the result array is the rectified, biased rows of the first array multiplied by the
    weight array, of the arrays the region was entered with. -/
theorem bias_relu_region (c : Dev nD) :
    (dat1 (F := Ideal) V c).arrAt 3 cfg1.N = biasReluProduct (V c main_v47) (V c main_v48) (V c main_arg5) :=
  (dat1 (F := Ideal) V c).arrAt_eq_of_cover 3 (biasReluProduct (V c main_v47) (V c main_v48) (V c main_arg5))
    (fun t _ => flushed_eq V c t) covered

/-- The product at the entry `(p, q)`. -/
theorem biasReluProduct_apply (x : S100000x16.Idx → EReal) (b : S1x16.Idx → EReal) (w : S16x8.Idx → EReal)
    (p : Fin 100000) (q : Fin 8) :
    biasReluProduct x b w (ix2 p q) = ∑ k : Fin 16, max (x (ix2 p k) + b (ix2 (0 : Fin 1) k)) 0 * w (ix2 k q) := rfl

/-- The same, with the three arrays the region was entered with named: the result array, index by index. -/
theorem bias_relu_region_of (c : Dev nD) (x : S100000x16.Idx → EReal) (b : S1x16.Idx → EReal) (w : S16x8.Idx → EReal)
    (hx : V c main_v47 = x) (hb : V c main_v48 = b) (hw : V c main_arg5 = w) :
    (dat1 (F := Ideal) V c).arrAt 3 cfg1.N
      = fun i : S100000x8.Idx => ∑ k : Fin 16, max (x (ix2 (i 0) k) + b (ix2 (0 : Fin 1) k)) 0 * w (ix2 k (i 1)) := by
  subst hx hb hw
  exact bias_relu_region V c

end Cert.KernelIdeal.BiasReluRegion

end
-- ==== Proof.KernelHost.lean ====
/-
  The idealized kernel's result as a function of its arguments.

  Between the launch and the return the program runs three stretches of host operations (the edge words and the
  weighted in-degree with the unit self-loop counted; its inverse square root where positive; the edges' symmetric
  normalisation), the first matrix-product region, a stretch (the first layer's aggregate and the bias laid out as a row),
  the second region, and a last stretch (the second aggregate plus its bias). Each stretch is read from ANY contents of
  the buffers — what it writes as the layer operations of its operands, and which buffers it keeps —, each region's output
  array is its closed form, and the boundaries' contents are chained from the launch memory to the result buffer.
-/
import proofs.«121270_j17154099380376_2_alg».proof.Proof.Gen.KernelIdeal.Frame
import proofs.«121270_j17154099380376_2_alg».proof.Proof.GcnOps
import proofs.«121270_j17154099380376_2_alg».proof.Proof.MatmulRegion
import proofs.«121270_j17154099380376_2_alg».proof.Proof.BiasReluRegion
import Idealize.ShloMosaic.Lib.StableHlo.Run

set_option maxRecDepth 16384

noncomputable section

namespace Cert.KernelIdeal.HostValue

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edges' source words: row 0 of the edge array. -/
def srcW (a1 : IVec S2x1600000 32) : IVec S1600000 32 :=
  shapeCast S1600000 (extractStridedSlice S1x1600000 ![0, 0] a1 slices_S2x1600000_S1x1600000_0_0) shapeCasts_S1x1600000_S1600000

/-- The edges' destination words: row 1 of the edge array. -/
def dstW (a1 : IVec S2x1600000 32) : IVec S1600000 32 :=
  shapeCast S1600000 (extractStridedSlice S1x1600000 ![1, 0] a1 slices_S2x1600000_S1x1600000_1_0) shapeCasts_S1x1600000_S1600000

/-- One per node. -/
def onesNd : FVec Ideal S100000 .f32 := broadcastInDim S100000 ![] bcast_S_S100000 (constant S_ .f32 0x3F800000#32)

/-- The degree with the unit self-loop counted: the edges' weights summed into their destinations, plus one. -/
def degK (a1 : IVec S2x1600000 32) (a2 : FVec Ideal S1600000 .f32) : FVec Ideal S100000 .f32 :=
  addf (degSum scatter_S100000_S1600000x1_S1600000_n_0_0_1 bcast_S_S100000 bcast_S1600000_S1600000x1_0 (dstW a1) a2) onesNd

/-- Its inverse square root where positive, zero elsewhere. -/
def disK (a1 : IVec S2x1600000 32) (a2 : FVec Ideal S1600000 .f32) : FVec Ideal S100000 .f32 :=
  invSqrtDeg bcast_S_S100000 (degK a1 a2)

/-- The given edges' symmetric normalisation with it. -/
def nrmK (a1 : IVec S2x1600000 32) (a2 : FVec Ideal S1600000 .f32) : FVec Ideal S1600000 .f32 :=
  edgeNorm gather_S100000_S1600000x1_S1600000_n_0_n_n_0_1_1 bcast_S_S1600000 bcast_S1600000_S1600000x1_0 (disK a1 a2)
    (srcW a1) (dstW a1) a2

/-- One layer's aggregate on 16 features: the messages summed into their destinations, plus the self-loop's share. -/
def aggK16 (h : FVec Ideal S100000x16 .f32) (s d : IVec S1600000 32) (nrm : FVec Ideal S1600000 .f32)
    (dis : FVec Ideal S100000 .f32) : FVec Ideal S100000x16 .f32 :=
  addf (aggSum scatter_S100000x16_S1600000x1_S1600000x16_1_0_0_1 gather_S100000x16_S1600000x1_S1600000x16_1_0_n_n_0_1_116
      bcast_S_S100000x16 bcast_S_S1600000 bcast_S1600000_S1600000x1_0 bcast_S1600000x1_S1600000x16_0_1 h s d nrm)
    (selfLoop bcast_S100000_S100000x1_0 bcast_S100000x1_S100000x16_0_1 h dis)

/-- The same on 8 features. -/
def aggK8 (h : FVec Ideal S100000x8 .f32) (s d : IVec S1600000 32) (nrm : FVec Ideal S1600000 .f32)
    (dis : FVec Ideal S100000 .f32) : FVec Ideal S100000x8 .f32 :=
  addf (aggSum scatter_S100000x8_S1600000x1_S1600000x8_1_0_0_1 gather_S100000x8_S1600000x1_S1600000x8_1_0_n_n_0_1_18
      bcast_S_S100000x8 bcast_S_S1600000 bcast_S1600000_S1600000x1_0 bcast_S1600000x1_S1600000x8_0_1 h s d nrm)
    (selfLoop bcast_S100000_S100000x1_0 bcast_S100000x1_S100000x8_0_1 h dis)

/-! ## Each stretch of host operations, from ANY contents `V` of the buffers: what it writes, and what it keeps -/

theorem ops0_src (V : Valuation τ sig (Elt Ideal)) :
    (StableHlo.after (hostOps0 (F := Ideal)) V (Proc.devRef .tc main_v1) : S1600000.Idx → BitVec 32) = srcW (V (Proc.devRef .tc main_arg1) : S2x1600000.Idx → BitVec 32) := by
  dsimp only [hostOps0]
  after_results
  try rfl
theorem ops0_dst (V : Valuation τ sig (Elt Ideal)) :
    (StableHlo.after (hostOps0 (F := Ideal)) V (Proc.devRef .tc main_v3) : S1600000.Idx → BitVec 32) = dstW (V (Proc.devRef .tc main_arg1) : S2x1600000.Idx → BitVec 32) := by
  dsimp only [hostOps0]
  after_results
  try rfl
set_option maxHeartbeats 4000000 in
theorem ops0_pos (V : Valuation τ sig (Elt Ideal)) :
    (StableHlo.after (hostOps0 (F := Ideal)) V (Proc.devRef .tc main_v10) : S100000.Idx → BitVec 1) = cmpf .ogt (degK (V (Proc.devRef .tc main_arg1) : S2x1600000.Idx → BitVec 32) (V (Proc.devRef .tc main_arg2) : S1600000.Idx → EReal)) (broadcastInDim S100000 ![] bcast_S_S100000 (constant (F := Ideal) S_ .f32 0x00000000#32)) := by
  dsimp only [hostOps0]
  after_results_simp
  try rfl
set_option maxHeartbeats 4000000 in
theorem ops0_rsqrt (V : Valuation τ sig (Elt Ideal)) :
    (StableHlo.after (hostOps0 (F := Ideal)) V (Proc.devRef .tc main_v11) : S100000.Idx → EReal) = Host.rsqrt (degK (V (Proc.devRef .tc main_arg1) : S2x1600000.Idx → BitVec 32) (V (Proc.devRef .tc main_arg2) : S1600000.Idx → EReal)) := by
  dsimp only [hostOps0]
  after_results_simp
  try rfl
theorem ops0_zero (V : Valuation τ sig (Elt Ideal)) :
    (StableHlo.after (hostOps0 (F := Ideal)) V (Proc.devRef .tc main_cst_2) : S_.Idx → EReal) = constant (F := Ideal) S_ .f32 0x00000000#32 := by
  dsimp only [hostOps0]
  after_results
  try rfl
theorem ops0_keeps_arg0 (V : Valuation τ sig (Elt Ideal)) :
    (StableHlo.after (hostOps0 (F := Ideal)) V (Proc.devRef .tc main_arg0) : S100000x128.Idx → EReal) = V (Proc.devRef .tc main_arg0) := by
  dsimp only [hostOps0]
  after_results
  try rfl
theorem ops0_keeps_arg2 (V : Valuation τ sig (Elt Ideal)) :
    (StableHlo.after (hostOps0 (F := Ideal)) V (Proc.devRef .tc main_arg2) : S1600000.Idx → EReal) = V (Proc.devRef .tc main_arg2) := by
  dsimp only [hostOps0]
  after_results
  try rfl
theorem ops0_keeps_arg3 (V : Valuation τ sig (Elt Ideal)) :
    (StableHlo.after (hostOps0 (F := Ideal)) V (Proc.devRef .tc main_arg3) : S128x16.Idx → EReal) = V (Proc.devRef .tc main_arg3) := by
  dsimp only [hostOps0]
  after_results
  try rfl
theorem ops0_keeps_arg4 (V : Valuation τ sig (Elt Ideal)) :
    (StableHlo.after (hostOps0 (F := Ideal)) V (Proc.devRef .tc main_arg4) : S16.Idx → EReal) = V (Proc.devRef .tc main_arg4) := by
  dsimp only [hostOps0]
  after_results
  try rfl
theorem ops0_keeps_arg5 (V : Valuation τ sig (Elt Ideal)) :
    (StableHlo.after (hostOps0 (F := Ideal)) V (Proc.devRef .tc main_arg5) : S16x8.Idx → EReal) = V (Proc.devRef .tc main_arg5) := by
  dsimp only [hostOps0]
  after_results
  try rfl
theorem ops0_keeps_arg6 (V : Valuation τ sig (Elt Ideal)) :
    (StableHlo.after (hostOps0 (F := Ideal)) V (Proc.devRef .tc main_arg6) : S8.Idx → EReal) = V (Proc.devRef .tc main_arg6) := by
  dsimp only [hostOps0]
  after_results
  try rfl
theorem ops01_dis (V : Valuation τ sig (Elt Ideal)) :
    (StableHlo.after (hostOps0_1 (F := Ideal)) V (Proc.devRef .tc main_v12) : S100000.Idx → EReal) = select (V (Proc.devRef .tc main_v10) : S100000.Idx → BitVec 1) (V (Proc.devRef .tc main_v11) : S100000.Idx → EReal) (broadcastInDim S100000 ![] bcast_S_S100000 (V (Proc.devRef .tc main_cst_2) : S_.Idx → EReal)) := by
  dsimp only [hostOps0_1]
  after_results
  try rfl
theorem ops01_keeps_v1 (V : Valuation τ sig (Elt Ideal)) :
    (StableHlo.after (hostOps0_1 (F := Ideal)) V (Proc.devRef .tc main_v1) : S1600000.Idx → BitVec 32) = V (Proc.devRef .tc main_v1) := by
  dsimp only [hostOps0_1]
  after_results
  try rfl
theorem ops01_keeps_v3 (V : Valuation τ sig (Elt Ideal)) :
    (StableHlo.after (hostOps0_1 (F := Ideal)) V (Proc.devRef .tc main_v3) : S1600000.Idx → BitVec 32) = V (Proc.devRef .tc main_v3) := by
  dsimp only [hostOps0_1]
  after_results
  try rfl
theorem ops01_keeps_arg0 (V : Valuation τ sig (Elt Ideal)) :
    (StableHlo.after (hostOps0_1 (F := Ideal)) V (Proc.devRef .tc main_arg0) : S100000x128.Idx → EReal) = V (Proc.devRef .tc main_arg0) := by
  dsimp only [hostOps0_1]
  after_results
  try rfl
theorem ops01_keeps_arg2 (V : Valuation τ sig (Elt Ideal)) :
    (StableHlo.after (hostOps0_1 (F := Ideal)) V (Proc.devRef .tc main_arg2) : S1600000.Idx → EReal) = V (Proc.devRef .tc main_arg2) := by
  dsimp only [hostOps0_1]
  after_results
  try rfl
theorem ops01_keeps_arg3 (V : Valuation τ sig (Elt Ideal)) :
    (StableHlo.after (hostOps0_1 (F := Ideal)) V (Proc.devRef .tc main_arg3) : S128x16.Idx → EReal) = V (Proc.devRef .tc main_arg3) := by
  dsimp only [hostOps0_1]
  after_results
  try rfl
theorem ops01_keeps_arg4 (V : Valuation τ sig (Elt Ideal)) :
    (StableHlo.after (hostOps0_1 (F := Ideal)) V (Proc.devRef .tc main_arg4) : S16.Idx → EReal) = V (Proc.devRef .tc main_arg4) := by
  dsimp only [hostOps0_1]
  after_results
  try rfl
theorem ops01_keeps_arg5 (V : Valuation τ sig (Elt Ideal)) :
    (StableHlo.after (hostOps0_1 (F := Ideal)) V (Proc.devRef .tc main_arg5) : S16x8.Idx → EReal) = V (Proc.devRef .tc main_arg5) := by
  dsimp only [hostOps0_1]
  after_results
  try rfl
theorem ops01_keeps_arg6 (V : Valuation τ sig (Elt Ideal)) :
    (StableHlo.after (hostOps0_1 (F := Ideal)) V (Proc.devRef .tc main_arg6) : S8.Idx → EReal) = V (Proc.devRef .tc main_arg6) := by
  dsimp only [hostOps0_1]
  after_results
  try rfl
set_option maxHeartbeats 4000000 in
theorem ops02_nrm (V : Valuation τ sig (Elt Ideal)) :
    (StableHlo.after (hostOps0_2 (F := Ideal)) V (Proc.devRef .tc main_v28) : S1600000.Idx → EReal) = edgeNorm gather_S100000_S1600000x1_S1600000_n_0_n_n_0_1_1 bcast_S_S1600000 bcast_S1600000_S1600000x1_0 (V (Proc.devRef .tc main_v12) : S100000.Idx → EReal) (V (Proc.devRef .tc main_v1) : S1600000.Idx → BitVec 32) (V (Proc.devRef .tc main_v3) : S1600000.Idx → BitVec 32) (V (Proc.devRef .tc main_arg2) : S1600000.Idx → EReal) := by
  dsimp only [hostOps0_2]
  after_results_simp
  try rfl
theorem ops02_keeps_v1 (V : Valuation τ sig (Elt Ideal)) :
    (StableHlo.after (hostOps0_2 (F := Ideal)) V (Proc.devRef .tc main_v1) : S1600000.Idx → BitVec 32) = V (Proc.devRef .tc main_v1) := by
  dsimp only [hostOps0_2]
  after_results
  try rfl
theorem ops02_keeps_v3 (V : Valuation τ sig (Elt Ideal)) :
    (StableHlo.after (hostOps0_2 (F := Ideal)) V (Proc.devRef .tc main_v3) : S1600000.Idx → BitVec 32) = V (Proc.devRef .tc main_v3) := by
  dsimp only [hostOps0_2]
  after_results
  try rfl
theorem ops02_keeps_v12 (V : Valuation τ sig (Elt Ideal)) :
    (StableHlo.after (hostOps0_2 (F := Ideal)) V (Proc.devRef .tc main_v12) : S100000.Idx → EReal) = V (Proc.devRef .tc main_v12) := by
  dsimp only [hostOps0_2]
  after_results
  try rfl
theorem ops02_keeps_arg0 (V : Valuation τ sig (Elt Ideal)) :
    (StableHlo.after (hostOps0_2 (F := Ideal)) V (Proc.devRef .tc main_arg0) : S100000x128.Idx → EReal) = V (Proc.devRef .tc main_arg0) := by
  dsimp only [hostOps0_2]
  after_results
  try rfl
theorem ops02_keeps_arg3 (V : Valuation τ sig (Elt Ideal)) :
    (StableHlo.after (hostOps0_2 (F := Ideal)) V (Proc.devRef .tc main_arg3) : S128x16.Idx → EReal) = V (Proc.devRef .tc main_arg3) := by
  dsimp only [hostOps0_2]
  after_results
  try rfl
theorem ops02_keeps_arg4 (V : Valuation τ sig (Elt Ideal)) :
    (StableHlo.after (hostOps0_2 (F := Ideal)) V (Proc.devRef .tc main_arg4) : S16.Idx → EReal) = V (Proc.devRef .tc main_arg4) := by
  dsimp only [hostOps0_2]
  after_results
  try rfl
theorem ops02_keeps_arg5 (V : Valuation τ sig (Elt Ideal)) :
    (StableHlo.after (hostOps0_2 (F := Ideal)) V (Proc.devRef .tc main_arg5) : S16x8.Idx → EReal) = V (Proc.devRef .tc main_arg5) := by
  dsimp only [hostOps0_2]
  after_results
  try rfl
theorem ops02_keeps_arg6 (V : Valuation τ sig (Elt Ideal)) :
    (StableHlo.after (hostOps0_2 (F := Ideal)) V (Proc.devRef .tc main_arg6) : S8.Idx → EReal) = V (Proc.devRef .tc main_arg6) := by
  dsimp only [hostOps0_2]
  after_results
  try rfl
set_option maxHeartbeats 4000000 in
theorem ops1_agg (V : Valuation τ sig (Elt Ideal)) :
    (StableHlo.after (hostOps1 (F := Ideal)) V (Proc.devRef .tc main_v47) : S100000x16.Idx → EReal) = aggK16 (V (Proc.devRef .tc main_v29) : S100000x16.Idx → EReal) (V (Proc.devRef .tc main_v1) : S1600000.Idx → BitVec 32) (V (Proc.devRef .tc main_v3) : S1600000.Idx → BitVec 32) (V (Proc.devRef .tc main_v28) : S1600000.Idx → EReal) (V (Proc.devRef .tc main_v12) : S100000.Idx → EReal) := by
  dsimp only [hostOps1]
  after_results_simp
  try rfl
theorem ops1_biasRow (V : Valuation τ sig (Elt Ideal)) :
    (StableHlo.after (hostOps1 (F := Ideal)) V (Proc.devRef .tc main_v48) : S1x16.Idx → EReal) = shapeCast S1x16 (V (Proc.devRef .tc main_arg4) : S16.Idx → EReal) shapeCasts_S16_S1x16 := by
  dsimp only [hostOps1]
  after_results
  try rfl
theorem ops1_keeps_v1 (V : Valuation τ sig (Elt Ideal)) :
    (StableHlo.after (hostOps1 (F := Ideal)) V (Proc.devRef .tc main_v1) : S1600000.Idx → BitVec 32) = V (Proc.devRef .tc main_v1) := by
  dsimp only [hostOps1]
  after_results
  try rfl
theorem ops1_keeps_v3 (V : Valuation τ sig (Elt Ideal)) :
    (StableHlo.after (hostOps1 (F := Ideal)) V (Proc.devRef .tc main_v3) : S1600000.Idx → BitVec 32) = V (Proc.devRef .tc main_v3) := by
  dsimp only [hostOps1]
  after_results
  try rfl
theorem ops1_keeps_v12 (V : Valuation τ sig (Elt Ideal)) :
    (StableHlo.after (hostOps1 (F := Ideal)) V (Proc.devRef .tc main_v12) : S100000.Idx → EReal) = V (Proc.devRef .tc main_v12) := by
  dsimp only [hostOps1]
  after_results
  try rfl
theorem ops1_keeps_v28 (V : Valuation τ sig (Elt Ideal)) :
    (StableHlo.after (hostOps1 (F := Ideal)) V (Proc.devRef .tc main_v28) : S1600000.Idx → EReal) = V (Proc.devRef .tc main_v28) := by
  dsimp only [hostOps1]
  after_results
  try rfl
theorem ops1_keeps_arg5 (V : Valuation τ sig (Elt Ideal)) :
    (StableHlo.after (hostOps1 (F := Ideal)) V (Proc.devRef .tc main_arg5) : S16x8.Idx → EReal) = V (Proc.devRef .tc main_arg5) := by
  dsimp only [hostOps1]
  after_results
  try rfl
theorem ops1_keeps_arg6 (V : Valuation τ sig (Elt Ideal)) :
    (StableHlo.after (hostOps1 (F := Ideal)) V (Proc.devRef .tc main_arg6) : S8.Idx → EReal) = V (Proc.devRef .tc main_arg6) := by
  dsimp only [hostOps1]
  after_results
  try rfl
set_option maxHeartbeats 4000000 in
theorem ops2_out (V : Valuation τ sig (Elt Ideal)) :
    (StableHlo.after (hostOps2 (F := Ideal)) V (Proc.devRef .tc main_v70) : S100000x8.Idx → EReal) = addBias bcast_S8_S1x8_1 bcast_S1x8_S100000x8_0_1 (aggK8 (V (Proc.devRef .tc main_v49) : S100000x8.Idx → EReal) (V (Proc.devRef .tc main_v1) : S1600000.Idx → BitVec 32) (V (Proc.devRef .tc main_v3) : S1600000.Idx → BitVec 32) (V (Proc.devRef .tc main_v28) : S1600000.Idx → EReal) (V (Proc.devRef .tc main_v12) : S100000.Idx → EReal)) (V (Proc.devRef .tc main_arg6) : S8.Idx → EReal) := by
  dsimp only [hostOps2]
  after_results_simp
  try rfl

/-! ## The stretches composed: the buffers at each boundary of the run, from the launch memory -/

section Compose

/-- Where the degree is positive its inverse square root, zero elsewhere: the three pieces the first stretch leaves,
    selected. -/
theorem dis_of (V : Valuation τ sig (Elt Ideal)) :
    select (StableHlo.after (hostOps0 (F := Ideal)) V (Proc.devRef .tc main_v10) : S100000.Idx → BitVec 1)
        (StableHlo.after (hostOps0 (F := Ideal)) V (Proc.devRef .tc main_v11) : S100000.Idx → EReal)
        (broadcastInDim S100000 ![] bcast_S_S100000 (StableHlo.after (hostOps0 (F := Ideal)) V (Proc.devRef .tc main_cst_2) : S_.Idx → EReal))
      = disK (V (Proc.devRef .tc main_arg1) : S2x1600000.Idx → BitVec 32) (V (Proc.devRef .tc main_arg2) : S1600000.Idx → EReal) := by
  rw [ops0_pos V, ops0_rsqrt V, ops0_zero V]
  rfl

theorem src_at2 : (W2 m ρ c (Proc.devRef .tc main_v1) : S1600000.Idx → BitVec 32) = srcW (m ((c.tc : Thread nD τ).loc main_arg1)) :=
  ((ops01_keeps_v1 (W1 m ρ c)).trans (ops0_src (W0 m ρ c)))
theorem dst_at2 : (W2 m ρ c (Proc.devRef .tc main_v3) : S1600000.Idx → BitVec 32) = dstW (m ((c.tc : Thread nD τ).loc main_arg1)) :=
  ((ops01_keeps_v3 (W1 m ρ c)).trans (ops0_dst (W0 m ρ c)))
theorem src_at3 : (W3 m ρ c (Proc.devRef .tc main_v1) : S1600000.Idx → BitVec 32) = srcW (m ((c.tc : Thread nD τ).loc main_arg1)) :=
  ((ops02_keeps_v1 (W2 m ρ c)).trans ((ops01_keeps_v1 (W1 m ρ c)).trans (ops0_src (W0 m ρ c))))
theorem dst_at3 : (W3 m ρ c (Proc.devRef .tc main_v3) : S1600000.Idx → BitVec 32) = dstW (m ((c.tc : Thread nD τ).loc main_arg1)) :=
  ((ops02_keeps_v3 (W2 m ρ c)).trans ((ops01_keeps_v3 (W1 m ρ c)).trans (ops0_dst (W0 m ρ c))))
theorem src_at4 : (W4 m ρ c (Proc.devRef .tc main_v1) : S1600000.Idx → BitVec 32) = srcW (m ((c.tc : Thread nD τ).loc main_arg1)) :=
  ((W4_of_ne m ρ c main_v1 (by decide)).trans ((ops02_keeps_v1 (W2 m ρ c)).trans ((ops01_keeps_v1 (W1 m ρ c)).trans (ops0_src (W0 m ρ c)))))
theorem dst_at4 : (W4 m ρ c (Proc.devRef .tc main_v3) : S1600000.Idx → BitVec 32) = dstW (m ((c.tc : Thread nD τ).loc main_arg1)) :=
  ((W4_of_ne m ρ c main_v3 (by decide)).trans ((ops02_keeps_v3 (W2 m ρ c)).trans ((ops01_keeps_v3 (W1 m ρ c)).trans (ops0_dst (W0 m ρ c)))))
theorem src_at5 : (W5 m ρ c (Proc.devRef .tc main_v1) : S1600000.Idx → BitVec 32) = srcW (m ((c.tc : Thread nD τ).loc main_arg1)) :=
  ((ops1_keeps_v1 (W4 m ρ c)).trans ((W4_of_ne m ρ c main_v1 (by decide)).trans ((ops02_keeps_v1 (W2 m ρ c)).trans ((ops01_keeps_v1 (W1 m ρ c)).trans (ops0_src (W0 m ρ c))))))
theorem dst_at5 : (W5 m ρ c (Proc.devRef .tc main_v3) : S1600000.Idx → BitVec 32) = dstW (m ((c.tc : Thread nD τ).loc main_arg1)) :=
  ((ops1_keeps_v3 (W4 m ρ c)).trans ((W4_of_ne m ρ c main_v3 (by decide)).trans ((ops02_keeps_v3 (W2 m ρ c)).trans ((ops01_keeps_v3 (W1 m ρ c)).trans (ops0_dst (W0 m ρ c))))))
theorem src_at6 : (W6 m ρ c (Proc.devRef .tc main_v1) : S1600000.Idx → BitVec 32) = srcW (m ((c.tc : Thread nD τ).loc main_arg1)) :=
  ((W6_of_ne m ρ c main_v1 (by decide)).trans ((ops1_keeps_v1 (W4 m ρ c)).trans ((W4_of_ne m ρ c main_v1 (by decide)).trans ((ops02_keeps_v1 (W2 m ρ c)).trans ((ops01_keeps_v1 (W1 m ρ c)).trans (ops0_src (W0 m ρ c)))))))
theorem dst_at6 : (W6 m ρ c (Proc.devRef .tc main_v3) : S1600000.Idx → BitVec 32) = dstW (m ((c.tc : Thread nD τ).loc main_arg1)) :=
  ((W6_of_ne m ρ c main_v3 (by decide)).trans ((ops1_keeps_v3 (W4 m ρ c)).trans ((W4_of_ne m ρ c main_v3 (by decide)).trans ((ops02_keeps_v3 (W2 m ρ c)).trans ((ops01_keeps_v3 (W1 m ρ c)).trans (ops0_dst (W0 m ρ c)))))))
theorem weights_at2 : (W2 m ρ c (Proc.devRef .tc main_arg2) : S1600000.Idx → EReal) = (m ((c.tc : Thread nD τ).loc main_arg2)) :=
  ((ops01_keeps_arg2 (W1 m ρ c)).trans ((ops0_keeps_arg2 (W0 m ρ c)).trans (rfl : (W0 m ρ c (Proc.devRef .tc main_arg2) : S1600000.Idx → EReal) = m ((c.tc : Thread nD τ).loc main_arg2))))
theorem dis_at2 : (W2 m ρ c (Proc.devRef .tc main_v12) : S100000.Idx → EReal) = disK (m ((c.tc : Thread nD τ).loc main_arg1)) (m ((c.tc : Thread nD τ).loc main_arg2)) :=
  ((ops01_dis (W1 m ρ c)).trans (dis_of (W0 m ρ c)))
theorem dis_at3 : (W3 m ρ c (Proc.devRef .tc main_v12) : S100000.Idx → EReal) = disK (m ((c.tc : Thread nD τ).loc main_arg1)) (m ((c.tc : Thread nD τ).loc main_arg2)) :=
  ((ops02_keeps_v12 (W2 m ρ c)).trans (dis_at2 m ρ c))
theorem dis_at4 : (W4 m ρ c (Proc.devRef .tc main_v12) : S100000.Idx → EReal) = disK (m ((c.tc : Thread nD τ).loc main_arg1)) (m ((c.tc : Thread nD τ).loc main_arg2)) :=
  ((W4_of_ne m ρ c main_v12 (by decide)).trans ((ops02_keeps_v12 (W2 m ρ c)).trans (dis_at2 m ρ c)))
theorem dis_at5 : (W5 m ρ c (Proc.devRef .tc main_v12) : S100000.Idx → EReal) = disK (m ((c.tc : Thread nD τ).loc main_arg1)) (m ((c.tc : Thread nD τ).loc main_arg2)) :=
  ((ops1_keeps_v12 (W4 m ρ c)).trans ((W4_of_ne m ρ c main_v12 (by decide)).trans ((ops02_keeps_v12 (W2 m ρ c)).trans (dis_at2 m ρ c))))
theorem dis_at6 : (W6 m ρ c (Proc.devRef .tc main_v12) : S100000.Idx → EReal) = disK (m ((c.tc : Thread nD τ).loc main_arg1)) (m ((c.tc : Thread nD τ).loc main_arg2)) :=
  ((W6_of_ne m ρ c main_v12 (by decide)).trans ((ops1_keeps_v12 (W4 m ρ c)).trans ((W4_of_ne m ρ c main_v12 (by decide)).trans ((ops02_keeps_v12 (W2 m ρ c)).trans (dis_at2 m ρ c)))))
theorem nrm_at3 : (W3 m ρ c (Proc.devRef .tc main_v28) : S1600000.Idx → EReal) = nrmK (m ((c.tc : Thread nD τ).loc main_arg1)) (m ((c.tc : Thread nD τ).loc main_arg2)) :=
  ((ops02_nrm (W2 m ρ c)).trans (by rw [dis_at2 m ρ c, src_at2 m ρ c, dst_at2 m ρ c, weights_at2 m ρ c]; rfl))
theorem nrm_at4 : (W4 m ρ c (Proc.devRef .tc main_v28) : S1600000.Idx → EReal) = nrmK (m ((c.tc : Thread nD τ).loc main_arg1)) (m ((c.tc : Thread nD τ).loc main_arg2)) :=
  ((W4_of_ne m ρ c main_v28 (by decide)).trans (nrm_at3 m ρ c))
theorem nrm_at5 : (W5 m ρ c (Proc.devRef .tc main_v28) : S1600000.Idx → EReal) = nrmK (m ((c.tc : Thread nD τ).loc main_arg1)) (m ((c.tc : Thread nD τ).loc main_arg2)) :=
  ((ops1_keeps_v28 (W4 m ρ c)).trans ((W4_of_ne m ρ c main_v28 (by decide)).trans (nrm_at3 m ρ c)))
theorem nrm_at6 : (W6 m ρ c (Proc.devRef .tc main_v28) : S1600000.Idx → EReal) = nrmK (m ((c.tc : Thread nD τ).loc main_arg1)) (m ((c.tc : Thread nD τ).loc main_arg2)) :=
  ((W6_of_ne m ρ c main_v28 (by decide)).trans ((ops1_keeps_v28 (W4 m ρ c)).trans ((W4_of_ne m ρ c main_v28 (by decide)).trans (nrm_at3 m ρ c))))
theorem x_at3 : (W3 m ρ c (Proc.devRef .tc main_arg0) : S100000x128.Idx → EReal) = (m ((c.tc : Thread nD τ).loc main_arg0)) :=
  ((ops02_keeps_arg0 (W2 m ρ c)).trans ((ops01_keeps_arg0 (W1 m ρ c)).trans ((ops0_keeps_arg0 (W0 m ρ c)).trans (rfl : (W0 m ρ c (Proc.devRef .tc main_arg0) : S100000x128.Idx → EReal) = m ((c.tc : Thread nD τ).loc main_arg0)))))
theorem w1_at3 : (W3 m ρ c (Proc.devRef .tc main_arg3) : S128x16.Idx → EReal) = (m ((c.tc : Thread nD τ).loc main_arg3)) :=
  ((ops02_keeps_arg3 (W2 m ρ c)).trans ((ops01_keeps_arg3 (W1 m ρ c)).trans ((ops0_keeps_arg3 (W0 m ρ c)).trans (rfl : (W0 m ρ c (Proc.devRef .tc main_arg3) : S128x16.Idx → EReal) = m ((c.tc : Thread nD τ).loc main_arg3)))))
theorem b1_at4 : (W4 m ρ c (Proc.devRef .tc main_arg4) : S16.Idx → EReal) = (m ((c.tc : Thread nD τ).loc main_arg4)) :=
  ((W4_of_ne m ρ c main_arg4 (by decide)).trans ((ops02_keeps_arg4 (W2 m ρ c)).trans ((ops01_keeps_arg4 (W1 m ρ c)).trans ((ops0_keeps_arg4 (W0 m ρ c)).trans (rfl : (W0 m ρ c (Proc.devRef .tc main_arg4) : S16.Idx → EReal) = m ((c.tc : Thread nD τ).loc main_arg4))))))
theorem w2_at5 : (W5 m ρ c (Proc.devRef .tc main_arg5) : S16x8.Idx → EReal) = (m ((c.tc : Thread nD τ).loc main_arg5)) :=
  ((ops1_keeps_arg5 (W4 m ρ c)).trans ((W4_of_ne m ρ c main_arg5 (by decide)).trans ((ops02_keeps_arg5 (W2 m ρ c)).trans ((ops01_keeps_arg5 (W1 m ρ c)).trans ((ops0_keeps_arg5 (W0 m ρ c)).trans (rfl : (W0 m ρ c (Proc.devRef .tc main_arg5) : S16x8.Idx → EReal) = m ((c.tc : Thread nD τ).loc main_arg5)))))))
theorem b2_at6 : (W6 m ρ c (Proc.devRef .tc main_arg6) : S8.Idx → EReal) = (m ((c.tc : Thread nD τ).loc main_arg6)) :=
  ((W6_of_ne m ρ c main_arg6 (by decide)).trans ((ops1_keeps_arg6 (W4 m ρ c)).trans ((W4_of_ne m ρ c main_arg6 (by decide)).trans ((ops02_keeps_arg6 (W2 m ρ c)).trans ((ops01_keeps_arg6 (W1 m ρ c)).trans ((ops0_keeps_arg6 (W0 m ρ c)).trans (rfl : (W0 m ρ c (Proc.devRef .tc main_arg6) : S8.Idx → EReal) = m ((c.tc : Thread nD τ).loc main_arg6))))))))

/-- The first region leaves in its output array the product of the node features with the first layer's weights. -/
theorem h1_at4 : (W4 m ρ c (Proc.devRef .tc main_v29) : S100000x16.Idx → EReal) = Cert.KernelIdeal.MatmulRegion.product (m ((c.tc : Thread nD τ).loc main_arg0)) (m ((c.tc : Thread nD τ).loc main_arg3)) :=
  (W4_arr m ρ c 2).trans ((Cert.KernelIdeal.MatmulRegion.matmul_region (V3 m ρ) c).trans
    (congrArg₂ Cert.KernelIdeal.MatmulRegion.product (x_at3 m ρ c) (w1_at3 m ρ c)))

theorem agg1_at5 : (W5 m ρ c (Proc.devRef .tc main_v47) : S100000x16.Idx → EReal) = aggK16 (Cert.KernelIdeal.MatmulRegion.product (m ((c.tc : Thread nD τ).loc main_arg0)) (m ((c.tc : Thread nD τ).loc main_arg3))) (srcW (m ((c.tc : Thread nD τ).loc main_arg1))) (dstW (m ((c.tc : Thread nD τ).loc main_arg1))) (nrmK (m ((c.tc : Thread nD τ).loc main_arg1)) (m ((c.tc : Thread nD τ).loc main_arg2))) (disK (m ((c.tc : Thread nD τ).loc main_arg1)) (m ((c.tc : Thread nD τ).loc main_arg2))) :=
  ((ops1_agg (W4 m ρ c)).trans (by rw [h1_at4 m ρ c, src_at4 m ρ c, dst_at4 m ρ c, nrm_at4 m ρ c, dis_at4 m ρ c]))
theorem biasRow_at5 : (W5 m ρ c (Proc.devRef .tc main_v48) : S1x16.Idx → EReal) = shapeCast S1x16 (m ((c.tc : Thread nD τ).loc main_arg4)) shapeCasts_S16_S1x16 :=
  ((ops1_biasRow (W4 m ρ c)).trans (by rw [b1_at4 m ρ c]))

/-- The second region leaves in its output array the clamped, biased first aggregate times the second layer's weights. -/
theorem h2_at6 : (W6 m ρ c (Proc.devRef .tc main_v49) : S100000x8.Idx → EReal) = Cert.KernelIdeal.BiasReluRegion.biasReluProduct (aggK16 (Cert.KernelIdeal.MatmulRegion.product (m ((c.tc : Thread nD τ).loc main_arg0)) (m ((c.tc : Thread nD τ).loc main_arg3))) (srcW (m ((c.tc : Thread nD τ).loc main_arg1))) (dstW (m ((c.tc : Thread nD τ).loc main_arg1))) (nrmK (m ((c.tc : Thread nD τ).loc main_arg1)) (m ((c.tc : Thread nD τ).loc main_arg2))) (disK (m ((c.tc : Thread nD τ).loc main_arg1)) (m ((c.tc : Thread nD τ).loc main_arg2)))) (shapeCast S1x16 (m ((c.tc : Thread nD τ).loc main_arg4)) shapeCasts_S16_S1x16) (m ((c.tc : Thread nD τ).loc main_arg5)) := by
  refine (W6_arr m ρ c 3).trans ((Cert.KernelIdeal.BiasReluRegion.bias_relu_region (V5 m ρ) c).trans ?_)
  show Cert.KernelIdeal.BiasReluRegion.biasReluProduct (W5 m ρ c (Proc.devRef .tc main_v47) : S100000x16.Idx → EReal)
      (W5 m ρ c (Proc.devRef .tc main_v48) : S1x16.Idx → EReal) (W5 m ρ c (Proc.devRef .tc main_arg5) : S16x8.Idx → EReal) = _
  rw [agg1_at5 m ρ c, biasRow_at5 m ρ c, w2_at5 m ρ c]

/-- THE KERNEL'S RESULT: the last boundary's contents of the result buffer, as a function of the launch memory. -/
def outK (a0 : FVec Ideal S100000x128 .f32) (a1 : IVec S2x1600000 32) (a2 : FVec Ideal S1600000 .f32)
    (a3 : FVec Ideal S128x16 .f32) (a4 : FVec Ideal S16 .f32) (a5 : FVec Ideal S16x8 .f32) (a6 : FVec Ideal S8 .f32) :
    FVec Ideal S100000x8 .f32 :=
  addBias bcast_S8_S1x8_1 bcast_S1x8_S100000x8_0_1
    (aggK8 (Cert.KernelIdeal.BiasReluRegion.biasReluProduct
        (aggK16 (Cert.KernelIdeal.MatmulRegion.product a0 a3) (srcW a1) (dstW a1) (nrmK a1 a2) (disK a1 a2))
        (shapeCast S1x16 a4 shapeCasts_S16_S1x16) a5)
      (srcW a1) (dstW a1) (nrmK a1 a2) (disK a1 a2)) a6

theorem result_eq : (W7 m ρ c (Proc.devRef .tc main_v70) : S100000x8.Idx → EReal)
    = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (ops2_out (W6 m ρ c)).trans (by
    rw [h2_at6 m ρ c, src_at6 m ρ c, dst_at6 m ρ c, nrm_at6 m ρ c, dis_at6 m ρ c, b2_at6 m ρ c]
    rfl)

end Compose

end Cert.KernelIdeal.HostValue

end
-- ==== Proof.RefValue.lean ====
/-
  The reference program's result as the layer operations of a graph with the self-loops appended.

  The reference appends to the 1600000 given edges one unit-weight edge from every node to itself — the edge words
  followed by 0, 1, …, 99999, the weights followed by ones —, computes on these 1700000 edges the weighted in-degree, its
  inverse square root where positive, the symmetric normalisation of every edge and, per layer, the normalised messages
  summed into their destinations, adds the layer's bias, and between the two layers clamps at zero; the features entering
  each layer's aggregation are a matrix product. Its run's term for the result is this composition.
-/
import proofs.«121270_j17154099380376_2_alg».proof.Proof.Gen.ReferenceIdeal.Read
import proofs.«121270_j17154099380376_2_alg».proof.Proof.GcnOps

set_option maxRecDepth 16384

noncomputable section

namespace Cert.ReferenceIdeal.RefValue

open Cert.ReferenceIdeal Cert.ReferenceIdeal.Gen Cert.ReferenceIdeal.Read Cert.Gcn
open Idealize.ShloMosaic Idealize.ShloMosaic.TcCoe Idealize.SL.Sem

/-- The edges' source words: row 0 of the edge array. -/
def srcW (a1 : IVec S2x1600000 32) : IVec S1600000 32 :=
  shapeCast S1600000 (extractStridedSlice S1x1600000 ![0, 0] a1 slices_S2x1600000_S1x1600000_0_0) shapeCasts_S1x1600000_S1600000

/-- The edges' destination words: row 1 of the edge array. -/
def dstW (a1 : IVec S2x1600000 32) : IVec S1600000 32 :=
  shapeCast S1600000 (extractStridedSlice S1x1600000 ![1, 0] a1 slices_S2x1600000_S1x1600000_1_0) shapeCasts_S1x1600000_S1600000

/-- The nodes' own numbers as words. -/
def iotaNd : IVec S100000 32 := iotaInDim S100000 32 0

/-- One per node. -/
def onesNd : FVec Ideal S100000 .f32 := broadcastInDim S100000 ![] bcast_S_S100000 (constant S_ .f32 0x3F800000#32)

/-- An edge array followed by one entry per node. -/
def cat {α : Type} (a : S1600000.Idx → α) (b : S100000.Idx → α) : S1700000.Idx → α :=
  concatenate S1700000 0 [⟨S1600000, a⟩, ⟨S100000, b⟩] concatenates_S1600000_S100000_S1700000_d0

/-- The weighted in-degree over the lengthened edge list. -/
def degR (a1 : IVec S2x1600000 32) (a2 : FVec Ideal S1600000 .f32) : FVec Ideal S100000 .f32 :=
  degSum scatter_S100000_S1700000x1_S1700000_n_0_0_1 bcast_S_S100000 bcast_S1700000_S1700000x1_0
    (cat (dstW a1) iotaNd) (cat a2 onesNd)

/-- Its inverse square root where positive, zero elsewhere. -/
def disR (a1 : IVec S2x1600000 32) (a2 : FVec Ideal S1600000 .f32) : FVec Ideal S100000 .f32 :=
  invSqrtDeg bcast_S_S100000 (degR a1 a2)

/-- The lengthened list's symmetric normalisation with it. -/
def nrmR (a1 : IVec S2x1600000 32) (a2 : FVec Ideal S1600000 .f32) : FVec Ideal S1700000 .f32 :=
  edgeNorm gather_S100000_S1700000x1_S1700000_n_0_n_n_0_1_1 bcast_S_S1700000 bcast_S1700000_S1700000x1_0 (disR a1 a2)
    (cat (srcW a1) iotaNd) (cat (dstW a1) iotaNd) (cat a2 onesNd)

/-- A layer's aggregate on 16 features over the lengthened list. -/
def aggR16 (h : FVec Ideal S100000x16 .f32) (a1 : IVec S2x1600000 32) (a2 : FVec Ideal S1600000 .f32) :
    FVec Ideal S100000x16 .f32 :=
  aggSum scatter_S100000x16_S1700000x1_S1700000x16_1_0_0_1 gather_S100000x16_S1700000x1_S1700000x16_1_0_n_n_0_1_116
    bcast_S_S100000x16 bcast_S_S1700000 bcast_S1700000_S1700000x1_0 bcast_S1700000x1_S1700000x16_0_1 h
    (cat (srcW a1) iotaNd) (cat (dstW a1) iotaNd) (nrmR a1 a2)

/-- The same on 8 features. -/
def aggR8 (h : FVec Ideal S100000x8 .f32) (a1 : IVec S2x1600000 32) (a2 : FVec Ideal S1600000 .f32) :
    FVec Ideal S100000x8 .f32 :=
  aggSum scatter_S100000x8_S1700000x1_S1700000x8_1_0_0_1 gather_S100000x8_S1700000x1_S1700000x8_1_0_n_n_0_1_18
    bcast_S_S100000x8 bcast_S_S1700000 bcast_S1700000_S1700000x1_0 bcast_S1700000x1_S1700000x8_0_1 h
    (cat (srcW a1) iotaNd) (cat (dstW a1) iotaNd) (nrmR a1 a2)

/-- The first layer's output, clamped at zero. -/
def hiddenR (a0 : FVec Ideal S100000x128 .f32) (a1 : IVec S2x1600000 32) (a2 : FVec Ideal S1600000 .f32)
    (a3 : FVec Ideal S128x16 .f32) (a4 : FVec Ideal S16 .f32) : FVec Ideal S100000x16 .f32 :=
  maximumf (addBias bcast_S16_S1x16_1 bcast_S1x16_S100000x16_0_1
      (aggR16 (Host.dotGeneral dot_S100000x128_S128x16_S100000x16_1_0_0_1_n_n none a0 a3) a1 a2) a4)
    (broadcastInDim S100000x16 ![] bcast_S_S100000x16 (constant S_ .f32 0x00000000#32))

/-- The second layer on the first's clamped output: product, aggregate, bias. -/
def outR (a0 : FVec Ideal S100000x128 .f32) (a1 : IVec S2x1600000 32) (a2 : FVec Ideal S1600000 .f32)
    (a3 : FVec Ideal S128x16 .f32) (a4 : FVec Ideal S16 .f32) (a5 : FVec Ideal S16x8 .f32) (a6 : FVec Ideal S8 .f32) :
    FVec Ideal S100000x8 .f32 :=
  addBias bcast_S8_S1x8_1 bcast_S1x8_S100000x8_0_1
    (aggR8 (Host.dotGeneral dot_S100000x16_S16x8_S100000x8_1_0_0_1_n_n none (hiddenR a0 a1 a2 a3 a4) a5) a1 a2) a6

/-- The run's result term is this composition: the two spell the same operations. -/
theorem result_eq (a0 : FVec Ideal S100000x128 .f32) (a1 : IVec S2x1600000 32) (a2 : FVec Ideal S1600000 .f32)
    (a3 : FVec Ideal S128x16 .f32) (a4 : FVec Ideal S16 .f32) (a5 : FVec Ideal S16x8 .f32) (a6 : FVec Ideal S8 .f32) :
    val_main_v94 (F := Ideal) a0 a1 a2 a3 a4 a5 a6 = outR a0 a1 a2 a3 a4 a5 a6 := rfl

end Cert.ReferenceIdeal.RefValue

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibScatterAddVec.lean ====
/-
  An accumulating scatter `x.at[idx].add(u)` of a vector `x : [N]` on the host, on the extended reals, read at an
  index.

  Summing the entries of `u : [E]` into the entries of `x` that an integer vector `idx` names lowers to a scatter
  whose body is an addition, with one inserted window axis (the vector's only axis), no update window axis (each
  scatter index carries one scalar) and a trailing index-vector axis of extent one on the scatter indices. Update
  entry `e` lands on entry `i` of the vector exactly when the scatter index `idx (e, 0)`, read as a signed integer,
  is `i`; an index outside `[0, N)` lands nowhere and its entry is dropped. So entry `i` of the result is

      x i + ∑ over the e with idx (e, 0) = i of u e,

  the sum running over the same set of positions as for a table of rows scattered by the same indices.
  The statement takes the dimension numbers as a record built from the literal lists; a printed record with the same
  lists is equal to it by `rfl`.
-/
import Idealize.ShloMosaic.PureOps.Ideal.Laws
import Idealize.ShloMosaic.Lib.ValueIdx
import proofs.«121270_j17154099380376_2_alg».proof.Proof.LibScatterAddRows

noncomputable section

open scoped BigOperators

namespace Cert.LibScatterAddVec

open Idealize.ShloMosaic Idealize.ShloMosaic.ValueIdx
open Cert.LibScatterAddRows (landing)

/-- The dimension numbers of `x.at[idx].add(u)` for a vector `[N]`, scatter indices `[E, 1]`, updates `[E]`. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : ℕ} (wf : ScatterDims.WF ⟨1, ![N]⟩ ⟨2, ![E, 1]⟩ ⟨1, ![E]⟩ [] [0] [0] 1)
  (idx : IVec ⟨2, ![E, 1]⟩ w) (e : Fin E)

/-- On the vector's axis the window starts at the scatter index `idx (e, 0)`, read signed. -/
theorem start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem zero_not_mem_sKept : (0 : Fin 1) ∉ (vecDims N E wf).sKept := by
  simp [ScatterDims.sKept, Shape.kept]

/-- The vector's axis is inserted: the window coordinate there is zero. -/
theorem window_zero : (vecDims N E wf).window (ix1 e) 0 = 0 := by
  unfold ScatterDims.window
  rw [dif_neg (zero_not_mem_sKept wf)]

end Coordinates

section Landing
variable {N E w : ℕ} (wf : ScatterDims.WF ⟨1, ![N]⟩ ⟨2, ![E, 1]⟩ ⟨1, ![E]⟩ [] [0] [0] 1)
  (idx : IVec ⟨2, ![E, 1]⟩ w)

/-- Update entry `e` lands on entry `i` of the vector exactly when its scatter index, read signed, is `i`. -/
theorem resultIdx?_vec (e : Fin E) (i : Fin N) :
    (vecDims N E wf).resultIdx? (ix1 e) idx = some (ix1 i) ↔ (idx (ix2 e (0 : Fin 1))).toInt = (i.val : ℤ) := by
  unfold ScatterDims.resultIdx?
  split
  · rename_i h
    rw [Option.some.injEq]
    have hr := h 0
    rw [start_zero, window_zero] at hr
    constructor
    · intro hf
      have h0 : ((vecDims N E wf).start (ix1 e) idx 0 + ((vecDims N E wf).window (ix1 e) 0 : ℕ)).toNat = i.val :=
        congrArg (fun f => (f 0).val) hf
      rw [start_zero, window_zero] at h0
      omega
    · intro h0
      funext a
      refine Fin.ext ?_
      match a with
      | ⟨0, _⟩ =>
        show ((vecDims N E wf).start (ix1 e) idx 0 + ((vecDims N E wf).window (ix1 e) 0 : ℕ)).toNat = i.val
        rw [start_zero, window_zero]; omega
  · rename_i h
    constructor
    · intro hf; exact absurd hf (by simp)
    · intro h0
      exfalso
      apply h
      intro a
      match a with
      | ⟨0, _⟩ =>
        show 0 ≤ (vecDims N E wf).start (ix1 e) idx 0 + ((vecDims N E wf).window (ix1 e) 0 : ℕ)
          ∧ (vecDims N E wf).start (ix1 e) idx 0 + ((vecDims N E wf).window (ix1 e) 0 : ℕ) < (N : ℤ)
        rw [start_zero, window_zero, h0]
        have := i.isLt
        constructor <;> omega

/-- THE ACCUMULATING SCATTER READ AT `i`: the vector's entry plus the updates summed over the positions whose
    scatter index is `i`. -/
theorem hostScatterAdd_vec_apply (x : (⟨1, ![N]⟩ : Shape).Idx → EReal) (upd : (⟨1, ![E]⟩ : Shape).Idx → EReal)
    (i : Fin N) :
    Ideal.hostScatterAdd (vecDims N E wf) x idx upd (ix1 i) = x (ix1 i) + ∑ e ∈ landing idx i.val, upd (ix1 e) := by
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultIdx?_vec wf idx e i).mp (Finset.mem_filter.mp hj).2⟩
  · intro e he
    exact Finset.mem_filter.mpr ⟨Finset.mem_univ _, (resultIdx?_vec wf idx e i).mpr (Finset.mem_filter.mp he).2⟩
  · intro j _
    exact (eq_ix1 j).symm
  · intro e _
    rfl
  · intro j _
    exact congrArg upd (eq_ix1 j)

end Landing

/-- The same for a printed `stablehlo.scatter` with an `add` body whose dimension numbers are these lists. -/
theorem scatterAdd_vec_apply {N E w : ℕ} {φ : FTy}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecDims N E wf)
    (idx : IVec ⟨2, ![E, 1]⟩ w) (x : FVec Ideal ⟨1, ![N]⟩ φ) (upd : FVec Ideal ⟨1, ![E]⟩ φ) (i : Fin N) :
    Host.scatterAdd d x idx upd (ix1 i) = x (ix1 i) + ∑ e ∈ landing idx i.val, upd (ix1 e) := by
  subst hd
  exact hostScatterAdd_vec_apply wf idx x upd i

end Cert.LibScatterAddVec

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.LibGatherVec.lean ====
/-
  A gather `x[idx]` of a vector `x : [N]` on the host, read at an index.

  `x[idx]` for a vector `x` and an integer array `idx` lowers to a gather with one collapsed axis (the vector's only
  axis), no offset axis (each start index picks one scalar) and a trailing index-vector axis of extent one on the
  start indices. Result entry `r` is the vector's entry at the position the start index names: the start index is
  read as a signed integer and clamped into `[0, N − 1]`, so every integer names a position. The statement takes the
  dimension numbers as a record built from the literal lists; a printed record with the same lists is equal to it by
  `rfl`.
-/
import Idealize.ShloMosaic.Lib.ValueIdx
import proofs.«121270_j17154099380376_2_alg».proof.Proof.LibGatherRows

noncomputable section

namespace Cert.LibGatherVec

open Idealize.ShloMosaic Idealize.ShloMosaic.ValueIdx
open Cert.LibGatherRows (clampRow)

variable {α : Type}

/-- The dimension numbers of `x[idx]` for a vector `[N]` and start indices `[R, 1]`, result `[R]`. -/
abbrev vecDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section Vec
variable {N R w : ℕ}
  (wf : GatherDims.WF ⟨1, ![N]⟩ ⟨2, ![R, 1]⟩ ⟨1, ![R]⟩ [] [0] [] [0] [] 1 ![1])
  (idx : IVec ⟨2, ![R, 1]⟩ w) (r : Fin R)

/-- On the vector's axis the operand coordinate is the clamped start index: no batching, and the axis is collapsed. -/
theorem vec_axis0 :
    (vecDims N R wf).start (ix1 r) idx 0 + (vecDims N R wf).batchCoord (ix1 r) 0
      + (vecDims N R wf).offCoord (ix1 r) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Vec

/-- Entry `r` of the gather is the vector's entry at the clamped start index `idx (r, 0)`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampRow N hN (idx (ix2 r (0 : Fin 1))))) := by
  unfold Host.gather
  congr 1
  funext a
  refine Fin.ext ?_
  match a with
  | ⟨0, _⟩ => exact vec_axis0 wf idx r

end Cert.LibGatherVec

end
-- ==== Proof.LibConcatVec.lean ====
/-
  Two host operations on vectors read at an index: the concatenation of two vectors, and the index vector
  `0, 1, …, N − 1`.

  The concatenation of `a : [A]` and `b : [B]` along their only axis is a vector of `A + B` entries: at a position
  `p < A` it reads `a p`, and at a position `p = A + j` with `j < B` it reads `b j`. The statements take the result's
  extent as a separate number `C` (the side condition of the concatenation says `A + B = C`) and a position `p : Fin C`
  together with the position in the piece and the equation that relates the two, so that at literal extents the
  equation is closed by `rfl` or by linear arithmetic.

  The index vector of `N` entries of 32-bit words holds at position `j` the word of `j`. For `N ≤ 2 ^ 31` that word,
  read as a signed integer, is `j` itself; in particular it is not negative, so a signed comparison "less than zero"
  fails on it, and clamping it into `[0, N − 1]` leaves it where it is.
-/
import Idealize.ShloMosaic.Lib.ValueIdx
import Idealize.ShloMosaic.Lib.Affine
import Idealize.ShloMosaic.Lib.Pipeline.Value
import proofs.«121270_j17154099380376_2_alg».proof.Proof.LibGatherRows

noncomputable section

namespace Cert.LibConcatVec

open Idealize.ShloMosaic Idealize.ShloMosaic.ValueIdx
open Cert.LibGatherRows (clampRow)

/-! ## The concatenation of two vectors -/

section Concat
variable {α : Type} {A B C : ℕ}
  (h : Shape.Concatenates [(⟨1, ![A]⟩ : Shape), (⟨1, ![B]⟩ : Shape)] ⟨1, ![C]⟩ 0)
  (a : (⟨1, ![A]⟩ : Shape).Idx → α) (b : (⟨1, ![B]⟩ : Shape).Idx → α)

include h in
/-- The side condition of the concatenation: the result's extent is the sum of the pieces'. -/
theorem concat_vec_size : A + B = C := by
  have e := h.2.2
  simpa using e

/-- At a position `p` that is a position `k` of the first vector, the concatenation reads the first vector at `k`. -/
theorem concat_vec_left (p : Fin C) (k : Fin A) (hp : p.val = k.val) :
    concatenate ⟨1, ![C]⟩ 0 [⟨⟨1, ![A]⟩, a⟩, ⟨⟨1, ![B]⟩, b⟩] h (ix1 p) = a (ix1 k) := by
  refine concatenate_pair_apply_left 0 a b h (ix1 p) rfl (ix1 k) ?_
  intro c
  match c with
  | ⟨0, _⟩ => exact hp.symm

/-- At a position `p = A + j`, `j` a position of the second vector, the concatenation reads the second vector at
    `j`. -/
theorem concat_vec_right (p : Fin C) (j : Fin B) (hp : p.val = A + j.val) :
    concatenate ⟨1, ![C]⟩ 0 [⟨⟨1, ![A]⟩, a⟩, ⟨⟨1, ![B]⟩, b⟩] h (ix1 p) = b (ix1 j) := by
  refine concatenate_pair_apply_right 0 a b h (ix1 p) rfl rfl (ix1 j) ?_ ?_
  · intro c hc
    match c with
    | ⟨0, _⟩ => exact absurd rfl hc
  · show j.val + A = p.val
    omega

/-- The concatenation at any position: the first vector below `A`, the second vector, shifted by `A`, from `A` on. -/
theorem concat_vec_apply (p : Fin C) :
    concatenate ⟨1, ![C]⟩ 0 [⟨⟨1, ![A]⟩, a⟩, ⟨⟨1, ![B]⟩, b⟩] h (ix1 p)
      = if hlt : p.val < A then a (ix1 ⟨p.val, hlt⟩)
        else b (ix1 ⟨p.val - A, by have := concat_vec_size h; have := p.isLt; omega⟩) := by
  split
  · next hlt => exact concat_vec_left h a b p ⟨p.val, hlt⟩ rfl
  · next hge =>
    exact concat_vec_right h a b p ⟨p.val - A, by have := concat_vec_size h; have := p.isLt; omega⟩
      (by show p.val = A + (p.val - A); omega)

end Concat

/-! ## The index vector `0, 1, …, N − 1` of 32-bit words -/

section Iota
variable {N : ℕ}

/-- Entry `j` of the index vector is the 32-bit word of `j`. -/
theorem iota_vec_apply (j : Fin N) : iotaInDim ⟨1, ![N]⟩ 32 0 (ix1 j) = BitVec.ofNat 32 j.val := rfl

/-- For at most `2 ^ 31` entries the word of `j`, read signed, is `j`. -/
theorem ofNat_toInt (hN : N ≤ 2 ^ 31) (j : Fin N) : (BitVec.ofNat 32 j.val).toInt = (j.val : ℤ) := by
  have hj : j.val < 2 ^ 31 := lt_of_lt_of_le j.isLt hN
  have hmod : j.val % 2 ^ 32 = j.val := Nat.mod_eq_of_lt (by omega)
  rw [BitVec.toInt_eq_toNat_of_lt (by rw [BitVec.toNat_ofNat, hmod]; omega), BitVec.toNat_ofNat, hmod]

/-- For at most `2 ^ 31` entries, entry `j` of the index vector read signed is `j`. -/
theorem iota_vec_toInt (hN : N ≤ 2 ^ 31) (j : Fin N) :
    (iotaInDim ⟨1, ![N]⟩ 32 0 (ix1 j)).toInt = (j.val : ℤ) := by
  rw [iota_vec_apply, ofNat_toInt hN j]

/-- A word whose signed value is a natural number is not signed-less-than zero: the comparison's word is not one. -/
theorem not_slt_zero_of_toInt {v : BitVec 32} {n : ℕ} (hv : v.toInt = (n : ℤ)) : IntOp.cmpi .slt v 0#32 ≠ 1#1 := by
  rw [Ne, IntOp.cmpi_slt, hv, show (0#32 : BitVec 32).toInt = 0 from rfl]
  omega

/-- The same as the comparison's word being zero. -/
theorem slt_zero_of_toInt {v : BitVec 32} {n : ℕ} (hv : v.toInt = (n : ℤ)) : IntOp.cmpi .slt v 0#32 = 0#1 := by
  have hne := not_slt_zero_of_toInt hv
  generalize IntOp.cmpi .slt v 0#32 = c at hne ⊢
  revert c; decide

/-- Entry `j` of the index vector is not signed-less-than zero. -/
theorem iota_vec_not_slt_zero (hN : N ≤ 2 ^ 31) (j : Fin N) :
    IntOp.cmpi .slt (iotaInDim ⟨1, ![N]⟩ 32 0 (ix1 j)) 0#32 ≠ 1#1 :=
  not_slt_zero_of_toInt (iota_vec_toInt hN j)

/-- The same as the comparison's word being zero. -/
theorem iota_vec_slt_zero (hN : N ≤ 2 ^ 31) (j : Fin N) :
    IntOp.cmpi .slt (iotaInDim ⟨1, ![N]⟩ 32 0 (ix1 j)) 0#32 = 0#1 :=
  slt_zero_of_toInt (iota_vec_toInt hN j)

/-- A word whose signed value is a position `j < N` is clamped into `[0, N − 1]` to `j` itself. -/
theorem clampRow_of_toInt {w : ℕ} (hN : 0 < N) (v : BitVec w) (j : Fin N) (hv : v.toInt = (j.val : ℤ)) :
    clampRow N hN v = j := by
  refine Fin.ext ?_
  show min v.toInt.toNat (N - 1) = j.val
  have := j.isLt
  rw [hv]
  omega

end Iota

end Cert.LibConcatVec

end
-- ==== Proof.GcnIndex.lean ====
/-
  The operations of a graph-convolution layer read at an index, for any number `n` of edges and any number `C` of
  features.

  A word `x` of an edge array names the node `nodeOf x`: a negative word is raised once by the number of nodes
  (`wrapWord`), and the result is clamped into `[0, 100000)`. The word of a node `j` names `j`. With `into d i` the
  set of the edges `e` whose destination word `d e`, read signed, is `i`:

  * the start indices of a lookup hold at `(e, 0)` the wrapped word of edge `e`;
  * the weighted in-degree of node `i` is zero plus the sum of `w e` over `e ∈ into d i`;
  * the normalisation of edge `e` is `dis (nodeOf (s e)) · w e · dis (nodeOf (d e))`;
  * the aggregate at `(i, c)` is zero plus the sum of `h (nodeOf (s e), c) · nrm e` over `e ∈ into d i`;
  * what a unit-weight edge from `i` to itself adds at `(i, c)` is `h (i, c) · (dis i · dis i)`.
-/
import Idealize.ShloMosaic.PureOps.Ideal.Laws
import Idealize.ShloMosaic.Lib.Pipeline.Value
import Idealize.ShloMosaic.Lib.ValueIdx
import Idealize.ShloMosaic.Lib.IdealHost
import proofs.«121270_j17154099380376_2_alg».proof.Proof.GcnOps
import proofs.«121270_j17154099380376_2_alg».proof.Proof.LibScatterAddRows
import proofs.«121270_j17154099380376_2_alg».proof.Proof.LibScatterAddVec
import proofs.«121270_j17154099380376_2_alg».proof.Proof.LibGatherRows
import proofs.«121270_j17154099380376_2_alg».proof.Proof.LibGatherVec
import proofs.«121270_j17154099380376_2_alg».proof.Proof.LibConcatVec

noncomputable section

open scoped BigOperators

namespace Cert.Gcn

open Idealize.ShloMosaic Idealize.ShloMosaic.ValueIdx

/-! ## Words and nodes -/

/-- A word prepared for a lookup: a negative word is raised once by the number of nodes. -/
def wrapWord (x : BitVec 32) : BitVec 32 := Scalar.select (IntOp.cmpi .slt x 0#32) (IntOp.addi x 100000#32) x

/-- The node a word names: the wrapped word clamped into `[0, 100000)`. -/
def nodeOf (x : BitVec 32) : Fin 100000 := Cert.LibGatherRows.clampRow 100000 (by decide) (wrapWord x)

/-- A word whose signed value is a natural number is not raised. -/
theorem wrapWord_of_toInt {x : BitVec 32} {k : ℕ} (hx : x.toInt = (k : ℤ)) : wrapWord x = x := by
  unfold wrapWord Scalar.select
  exact if_neg (Cert.LibConcatVec.not_slt_zero_of_toInt hx)

/-- A word whose signed value is the node `j` names `j`. -/
theorem nodeOf_of_toInt {x : BitVec 32} (j : Fin 100000) (hx : x.toInt = (j.val : ℤ)) : nodeOf x = j := by
  unfold nodeOf
  rw [wrapWord_of_toInt hx]
  exact Cert.LibConcatVec.clampRow_of_toInt _ x j hx

/-- The word of the node `j` names `j`. -/
theorem nodeOf_ofNat (j : Fin 100000) : nodeOf (BitVec.ofNat 32 j.val) = j :=
  nodeOf_of_toInt j (Cert.LibConcatVec.ofNat_toInt (by norm_num) j)

/-- The edges into node `i`: those whose destination word, read signed, is `i`. -/
def into {n : ℕ} (d : IVec (Ed n) 32) (i : ℕ) : Finset (Fin n) :=
  Finset.univ.filter fun e => (d (ix1 e)).toInt = (i : ℤ)

/-! ## Columns -/

section Columns
variable {α : Type}

/-- A vector of `a` entries laid out as an `a × 1` column holds at `(e, 0)` the vector's entry `e`. -/
theorem col_apply {a : ℕ} (h : (⟨1, ![a]⟩ : Shape).BroadcastsInDim ⟨2, ![a, 1]⟩ ![0])
    (x : (⟨1, ![a]⟩ : Shape).Idx → α) (e : Fin a) (u : Fin 1) :
    broadcastInDim ⟨2, ![a, 1]⟩ ![0] h x (ix2 e u) = x (ix1 e) := by
  refine broadcastInDim_apply ![0] h x (ix2 e u) (ix1 e) fun ax => ?_
  match ax with
  | ⟨0, _⟩ =>
    show e.val = if a = 1 then 0 else e.val
    split
    · have := e.isLt; omega
    · rfl

/-- An `a × 1` column stretched to `a × b` holds at `(e, c)` the column's entry at row `e`. -/
theorem colStretch_apply {a b : ℕ} (h : (⟨2, ![a, 1]⟩ : Shape).BroadcastsInDim ⟨2, ![a, b]⟩ ![0, 1])
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply ![0, 1] h y (ix2 e c) (ix2 e (0 : Fin 1)) fun ax => ?_
  match ax with
  | ⟨0, _⟩ =>
    show e.val = if a = 1 then 0 else e.val
    split
    · have := e.isLt; omega
    · rfl
  | ⟨1, _⟩ => rfl

end Columns

section Index
variable {n : ℕ}

/-- The rows of a column of destination words that land on node `i` are the edges into `i`. -/
theorem landing_col (h1 : (Ed n).BroadcastsInDim (Ed1 n) ![0]) (d : IVec (Ed n) 32) (i : ℕ) :
    Cert.LibScatterAddRows.landing (broadcastInDim (Ed1 n) ![0] h1 d) i = into d i := by
  unfold Cert.LibScatterAddRows.landing into
  exact Finset.filter_congr fun e _ => by rw [col_apply h1 d e 0]

/-- The start indices hold at `(e, 0)` the wrapped word of edge `e`. -/
theorem startIdx_apply (h0 : Sc.BroadcastsInDim (Ed n) ![]) (h1 : (Ed n).BroadcastsInDim (Ed1 n) ![0])
    (v : IVec (Ed n) 32) (e : Fin n) : startIdx h0 h1 v (ix2 e (0 : Fin 1)) = wrapWord (v (ix1 e)) := by
  unfold startIdx
  rw [col_apply h1 _ e 0]
  rfl

/-- The weighted in-degree of node `i`: zero plus the weights of the edges into `i`. -/
theorem degSum_apply (wf : ScatterDims.WF Nd (Ed1 n) (Ed n) [] [0] [0] 1) (sd : ScatterDims Nd (Ed1 n) (Ed n))
    (hsd : sd = Cert.LibScatterAddVec.vecDims 100000 n wf) (hz : Sc.BroadcastsInDim Nd ![])
    (h1 : (Ed n).BroadcastsInDim (Ed1 n) ![0]) (d : IVec (Ed n) 32) (w : FVec Ideal (Ed n) .f32) (i : Fin 100000) :
    degSum sd hz h1 d w (ix1 i) = Ideal.ofBits .f32 0x00000000#32 + ∑ e ∈ into d i.val, w (ix1 e) := by
  unfold degSum
  rw [Cert.LibScatterAddVec.scatterAdd_vec_apply wf sd hsd, landing_col]
  rfl

/-- The normalisation of edge `e`: `dis` at its source node times its weight times `dis` at its destination node. -/
theorem edgeNorm_apply (wf : GatherDims.WF Nd (Ed1 n) (Ed n) [] [0] [] [0] [] 1 ![1]) (gd : GatherDims Nd (Ed1 n) (Ed n))
    (hgd : gd = Cert.LibGatherVec.vecDims 100000 n wf) (h0 : Sc.BroadcastsInDim (Ed n) ![])
    (h1 : (Ed n).BroadcastsInDim (Ed1 n) ![0]) (dis : FVec Ideal Nd .f32) (s d : IVec (Ed n) 32)
    (w : FVec Ideal (Ed n) .f32) (e : Fin n) :
    edgeNorm gd h0 h1 dis s d w (ix1 e)
      = dis (ix1 (nodeOf (s (ix1 e)))) * w (ix1 e) * dis (ix1 (nodeOf (d (ix1 e)))) := by
  subst hgd
  unfold edgeNorm
  show Host.gather (Cert.LibGatherVec.vecDims 100000 n wf) dis (startIdx h0 h1 s) (ix1 e) * w (ix1 e)
      * Host.gather (Cert.LibGatherVec.vecDims 100000 n wf) dis (startIdx h0 h1 d) (ix1 e) = _
  rw [Cert.LibGatherVec.gather_vec_apply (by decide) wf, Cert.LibGatherVec.gather_vec_apply (by decide) wf,
    startIdx_apply, startIdx_apply]
  rfl

/-- The aggregate at `(i, c)`: zero plus, over the edges into `i`, feature `c` of the source node's row times the
    edge's normalisation. -/
theorem aggSum_apply {C : ℕ} (wfs : ScatterDims.WF (NdC C) (Ed1 n) (EdC n C) [1] [0] [0] 1)
    (wfg : GatherDims.WF (NdC C) (Ed1 n) (EdC n C) [1] [0] [] [0] [] 1 ![1, C])
    (sd : ScatterDims (NdC C) (Ed1 n) (EdC n C)) (hsd : sd = Cert.LibScatterAddRows.rowDims 100000 C n wfs)
    (gd : GatherDims (NdC C) (Ed1 n) (EdC n C)) (hgd : gd = Cert.LibGatherRows.rowDims2 100000 C n wfg)
    (hz : Sc.BroadcastsInDim (NdC C) ![]) (h0 : Sc.BroadcastsInDim (Ed n) ![])
    (h1 : (Ed n).BroadcastsInDim (Ed1 n) ![0]) (h2 : (Ed1 n).BroadcastsInDim (EdC n C) ![0, 1])
    (h : FVec Ideal (NdC C) .f32) (s d : IVec (Ed n) 32) (nrm : FVec Ideal (Ed n) .f32) (i : Fin 100000) (c : Fin C) :
    aggSum sd gd hz h0 h1 h2 h s d nrm (ix2 i c)
      = Ideal.ofBits .f32 0x00000000#32 + ∑ e ∈ into d i.val, h (ix2 (nodeOf (s (ix1 e))) c) * nrm (ix1 e) := by
  subst hgd
  unfold aggSum
  rw [Cert.LibScatterAddRows.scatterAdd_rows_apply wfs _ sd hsd, landing_col]
  refine congrArg (Ideal.ofBits .f32 0x00000000#32 + ·) (Finset.sum_congr rfl fun e _ => ?_)
  show Host.gather (Cert.LibGatherRows.rowDims2 100000 C n wfg) h (startIdx h0 h1 s) (ix2 e c)
      * broadcastInDim (EdC n C) ![0, 1] h2 (broadcastInDim (Ed1 n) ![0] h1 nrm) (ix2 e c) = _
  rw [Cert.LibGatherRows.gather_rows2_apply (by decide) wfg, startIdx_apply, colStretch_apply h2, col_apply h1]
  rfl

end Index

/-- What a unit-weight edge from `i` to itself adds at `(i, c)`: `h (i, c) · (dis i · dis i)`. -/
theorem selfLoop_apply {C : ℕ} (hc1 : Nd.BroadcastsInDim Nd1 ![0]) (hc2 : Nd1.BroadcastsInDim (NdC C) ![0, 1])
    (h : FVec Ideal (NdC C) .f32) (dis : FVec Ideal Nd .f32) (i : Fin 100000) (c : Fin C) :
    selfLoop hc1 hc2 h dis (ix2 i c) = h (ix2 i c) * (dis (ix1 i) * dis (ix1 i)) := by
  unfold selfLoop
  show h (ix2 i c) * broadcastInDim (NdC C) ![0, 1] hc2 (broadcastInDim Nd1 ![0] hc1 (mulf dis dis)) (ix2 i c) = _
  rw [colStretch_apply hc2, col_apply hc1]
  rfl

end Cert.Gcn

end
-- ==== Proof.GcnSelfLoops.lean ====
/-
  Appending one unit-weight edge from every node to itself to a graph on 100000 nodes with `n` weighted edges.

  The edge arrays of the larger graph are the given ones followed by 100000 more entries: source word and
  destination word of appended edge `n + j` are both the word of `j`, and its weight is `u j`. The word of `j`, read
  signed, is `j`, so appended edge `n + j` goes into node `i` exactly when `j = i`, and both its end points name node
  `j`. A sum over the edges into `i` of the larger graph is therefore the sum over the edges into `i` of the given
  graph plus the one term of appended edge `n + i`. Hence

  * the weighted in-degree of the larger graph is the in-degree of the given graph plus `u`;
  * with all `u j = 1`, a layer's aggregate over the larger graph is the aggregate over the given graph plus
    `h (i, c) · (dis i · dis i)`: appended edge `n + i` reads row `i` and has normalisation `dis i · 1 · dis i`.

  Over the extended reals only associativity of `+` and `x · 1 = x` are used.
-/
import proofs.«121270_j17154099380376_2_alg».proof.Proof.GcnIndex

noncomputable section

open scoped BigOperators

namespace Cert.Gcn

open Idealize.ShloMosaic Idealize.ShloMosaic.ValueIdx

/-! ## Sums over the positions of two arrays laid end to end -/

section Sums
variable {M : Type} [AddCommMonoid M]

/-- A sum over the positions of `n + m` that satisfy `p` is the sum over the first `n` positions that do plus the sum
    over the last `m` positions that do. -/
theorem sum_filter_fin_add {n m : ℕ} (p : Fin (n + m) → Prop) [DecidablePred p] (f : Fin (n + m) → M) :
    ∑ e ∈ Finset.univ.filter p, f e
      = ∑ e ∈ Finset.univ.filter (fun e : Fin n => p (Fin.castAdd m e)), f (Fin.castAdd m e)
        + ∑ j ∈ Finset.univ.filter (fun j : Fin m => p (Fin.natAdd n j)), f (Fin.natAdd n j) := by
  rw [Finset.sum_filter, Fin.sum_univ_add, Finset.sum_filter, Finset.sum_filter]

/-- A sum over the positions that satisfy a condition met by `i` alone is the term at `i`. -/
theorem sum_filter_eq_single {m : ℕ} (q : Fin m → Prop) [DecidablePred q] (g : Fin m → M) (i : Fin m)
    (hq : ∀ j, q j ↔ j = i) : ∑ j ∈ Finset.univ.filter q, g j = g i := by
  have hs : Finset.univ.filter q = {i} := by
    ext j
    simp [hq j]
  rw [hs, Finset.sum_singleton]

end Sums

/-! ## The edge arrays with the appended edges, read at an index -/

section Cat
variable {α : Type} {n : ℕ} (hcat : Shape.Concatenates [Ed n, Nd] (Ed (n + 100000)) 0)
  (a : (Ed n).Idx → α) (b : Nd.Idx → α)

/-- At a given edge the extended array holds the given array's entry. -/
theorem cat_left (e : Fin n) :
    concatenate (Ed (n + 100000)) 0 [⟨Ed n, a⟩, ⟨Nd, b⟩] hcat (ix1 (Fin.castAdd 100000 e)) = a (ix1 e) :=
  Cert.LibConcatVec.concat_vec_left hcat a b (Fin.castAdd 100000 e) e rfl

/-- At appended edge `n + j` the extended array holds the appended array's entry `j`. -/
theorem cat_right (j : Fin 100000) :
    concatenate (Ed (n + 100000)) 0 [⟨Ed n, a⟩, ⟨Nd, b⟩] hcat (ix1 (Fin.natAdd n j)) = b (ix1 j) :=
  Cert.LibConcatVec.concat_vec_right hcat a b (Fin.natAdd n j) j rfl

end Cat

/-- The word of `j`, read signed, is `i` exactly when `j = i`. -/
theorem iota_toInt_eq_iff (i j : Fin 100000) : (iotaInDim Nd 32 0 (ix1 j)).toInt = (i.val : ℤ) ↔ j = i := by
  rw [Cert.LibConcatVec.iota_vec_toInt (by norm_num) j]
  constructor
  · intro h
    exact Fin.ext (by exact_mod_cast h)
  · rintro rfl
    rfl

/-- The word of `j` names the node `j`. -/
theorem nodeOf_iota (j : Fin 100000) : nodeOf (iotaInDim Nd 32 0 (ix1 j)) = j := nodeOf_ofNat j

/-- A sum over the edges into `i` of the extended graph: the sum over the edges into `i` of the given graph plus the
    term of appended edge `n + i`. -/
theorem sum_into_cat {n : ℕ} (hcat : Shape.Concatenates [Ed n, Nd] (Ed (n + 100000)) 0) (d : IVec (Ed n) 32)
    (i : Fin 100000) (f : Fin (n + 100000) → EReal) :
    ∑ e ∈ into (concatenate (Ed (n + 100000)) 0 [⟨Ed n, d⟩, ⟨Nd, iotaInDim Nd 32 0⟩] hcat) i.val, f e
      = ∑ e ∈ into d i.val, f (Fin.castAdd 100000 e) + f (Fin.natAdd n i) := by
  unfold into
  rw [sum_filter_fin_add, sum_filter_eq_single _ _ i (fun j => by rw [cat_right]; exact iota_toInt_eq_iff i j)]
  congr 1
  exact Finset.sum_congr (Finset.filter_congr fun e _ => by rw [cat_left]) fun _ _ => rfl

/-- A sum of two arrays at an index is the sum of the entries. -/
theorem addf_apply {s : Shape} {φ : FTy} (x y : FVec Ideal s φ) (j : s.Idx) : addf x y j = x j + y j := rfl

/-! ## The in-degree and the aggregate with the appended edges -/

/-- THE IN-DEGREE: with the edges `n + j` from `j` to `j` of weight `u j` appended, the weighted in-degree is the
    in-degree of the given graph plus `u`. -/
theorem degSum_selfLoops {n n' : ℕ} (hn : n' = n + 100000) (hcat : Shape.Concatenates [Ed n, Nd] (Ed n') 0)
    (wf : ScatterDims.WF Nd (Ed1 n) (Ed n) [] [0] [0] 1) (sd : ScatterDims Nd (Ed1 n) (Ed n))
    (hsd : sd = Cert.LibScatterAddVec.vecDims 100000 n wf)
    (wf' : ScatterDims.WF Nd (Ed1 n') (Ed n') [] [0] [0] 1) (sd' : ScatterDims Nd (Ed1 n') (Ed n'))
    (hsd' : sd' = Cert.LibScatterAddVec.vecDims 100000 n' wf')
    (hz : Sc.BroadcastsInDim Nd ![]) (h1 : (Ed n).BroadcastsInDim (Ed1 n) ![0])
    (h1' : (Ed n').BroadcastsInDim (Ed1 n') ![0])
    (d : IVec (Ed n) 32) (w : FVec Ideal (Ed n) .f32) (u : FVec Ideal Nd .f32) :
    degSum sd' hz h1' (concatenate (Ed n') 0 [⟨Ed n, d⟩, ⟨Nd, iotaInDim Nd 32 0⟩] hcat)
        (concatenate (Ed n') 0 [⟨Ed n, w⟩, ⟨Nd, u⟩] hcat)
      = addf (degSum sd hz h1 d w) u := by
  subst hn
  funext idx
  obtain ⟨i, rfl⟩ : ∃ i : Fin 100000, idx = ix1 i := ⟨idx 0, eq_ix1 idx⟩
  rw [addf_apply, degSum_apply wf' sd' hsd', degSum_apply wf sd hsd, sum_into_cat hcat d i, add_assoc]
  simp only [cat_left, cat_right]

/-- THE AGGREGATE: with the unit-weight edges `n + j` from `j` to `j` appended, a layer's aggregate — the rows of `h`
    at the source nodes, scaled by the symmetric normalisation `dis · weight · dis` and summed into the destination
    nodes — is the aggregate over the given graph plus `h (i, c) · (dis i · dis i)`, for every `h` and `dis`. -/
theorem aggSum_selfLoops {C n n' : ℕ} (hn : n' = n + 100000) (hcat : Shape.Concatenates [Ed n, Nd] (Ed n') 0)
    -- the given graph's records
    (wfs : ScatterDims.WF (NdC C) (Ed1 n) (EdC n C) [1] [0] [0] 1)
    (wfg : GatherDims.WF (NdC C) (Ed1 n) (EdC n C) [1] [0] [] [0] [] 1 ![1, C])
    (sd : ScatterDims (NdC C) (Ed1 n) (EdC n C)) (hsd : sd = Cert.LibScatterAddRows.rowDims 100000 C n wfs)
    (gd : GatherDims (NdC C) (Ed1 n) (EdC n C)) (hgd : gd = Cert.LibGatherRows.rowDims2 100000 C n wfg)
    (wfv : GatherDims.WF Nd (Ed1 n) (Ed n) [] [0] [] [0] [] 1 ![1]) (gdv : GatherDims Nd (Ed1 n) (Ed n))
    (hgdv : gdv = Cert.LibGatherVec.vecDims 100000 n wfv)
    -- the extended graph's records
    (wfs' : ScatterDims.WF (NdC C) (Ed1 n') (EdC n' C) [1] [0] [0] 1)
    (wfg' : GatherDims.WF (NdC C) (Ed1 n') (EdC n' C) [1] [0] [] [0] [] 1 ![1, C])
    (sd' : ScatterDims (NdC C) (Ed1 n') (EdC n' C)) (hsd' : sd' = Cert.LibScatterAddRows.rowDims 100000 C n' wfs')
    (gd' : GatherDims (NdC C) (Ed1 n') (EdC n' C)) (hgd' : gd' = Cert.LibGatherRows.rowDims2 100000 C n' wfg')
    (wfv' : GatherDims.WF Nd (Ed1 n') (Ed n') [] [0] [] [0] [] 1 ![1]) (gdv' : GatherDims Nd (Ed1 n') (Ed n'))
    (hgdv' : gdv' = Cert.LibGatherVec.vecDims 100000 n' wfv')
    (hzC : Sc.BroadcastsInDim (NdC C) ![])
    (h0 : Sc.BroadcastsInDim (Ed n) ![]) (h1 : (Ed n).BroadcastsInDim (Ed1 n) ![0])
    (h2 : (Ed1 n).BroadcastsInDim (EdC n C) ![0, 1])
    (h0' : Sc.BroadcastsInDim (Ed n') ![]) (h1' : (Ed n').BroadcastsInDim (Ed1 n') ![0])
    (h2' : (Ed1 n').BroadcastsInDim (EdC n' C) ![0, 1])
    (hc1 : Nd.BroadcastsInDim Nd1 ![0]) (hc2 : Nd1.BroadcastsInDim (NdC C) ![0, 1])
    (h : FVec Ideal (NdC C) .f32) (dis : FVec Ideal Nd .f32) (s d : IVec (Ed n) 32) (w : FVec Ideal (Ed n) .f32)
    (u : FVec Ideal Nd .f32) (hu : ∀ i, u i = 1) :
    aggSum sd' gd' hzC h0' h1' h2' h
        (concatenate (Ed n') 0 [⟨Ed n, s⟩, ⟨Nd, iotaInDim Nd 32 0⟩] hcat)
        (concatenate (Ed n') 0 [⟨Ed n, d⟩, ⟨Nd, iotaInDim Nd 32 0⟩] hcat)
        (edgeNorm gdv' h0' h1' dis
          (concatenate (Ed n') 0 [⟨Ed n, s⟩, ⟨Nd, iotaInDim Nd 32 0⟩] hcat)
          (concatenate (Ed n') 0 [⟨Ed n, d⟩, ⟨Nd, iotaInDim Nd 32 0⟩] hcat)
          (concatenate (Ed n') 0 [⟨Ed n, w⟩, ⟨Nd, u⟩] hcat))
      = addf (aggSum sd gd hzC h0 h1 h2 h s d (edgeNorm gdv h0 h1 dis s d w)) (selfLoop hc1 hc2 h dis) := by
  subst hn
  funext idx
  obtain ⟨i, c, rfl⟩ : ∃ (i : Fin 100000) (c : Fin C), idx = ix2 i c := ⟨idx 0, idx 1, eq_ix2 idx⟩
  rw [addf_apply, aggSum_apply wfs' wfg' sd' hsd' gd' hgd', aggSum_apply wfs wfg sd hsd gd hgd, selfLoop_apply,
    sum_into_cat hcat d i, add_assoc]
  simp only [edgeNorm_apply wfv' gdv' hgdv', edgeNorm_apply wfv gdv hgdv, cat_left, cat_right, nodeOf_iota, hu, mul_one]

/-! ## The unit weights -/

/-- The 32-bit float word `0x3F800000` is one. -/
theorem one_word : Ideal.ofBits .f32 0x3F800000#32 = 1 := Ideal.ofBits_one_f32

/-- The vector of that word, one entry per node, is one everywhere. -/
theorem ones_apply (hz : Sc.BroadcastsInDim Nd ![]) (i : Nd.Idx) :
    (broadcastInDim Nd ![] hz (constant Sc .f32 0x3F800000#32) : FVec Ideal Nd .f32) i = 1 := by
  show Ideal.ofBits .f32 0x3F800000#32 = 1
  exact one_word

end Cert.Gcn

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«121270_j17154099380376_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.ProductForms.lean ====
/-
  The two matrix products of the host program against the two row-blocked products, as whole arrays on the extended reals.

  The host program forms `a · w` for `a : [100000, 128]`, `w : [128, 16]` by one general dot product; entry `(p, q)` is
  `∑ k, a (p, k) · w (k, q)`, which is the row-blocked product's entry. Its second product takes `x : [100000, 16]`, adds a
  bias vector `b : [16]` to every row (the vector laid out as a `[1, 16]` row by a broadcast along a new leading axis, the
  row broadcast over the rows), clamps every entry below at zero (the maximum with a rank-0 zero broadcast to the shape)
  and multiplies by `w : [16, 8]`; entry `(p, q)` is `∑ k, max (x (p, k) + b k) 0 · w (k, q)`. The row-blocked form reads the
  bias as a `[1, 16]` row; the vector cast to that row has `b k` at `(0, k)`, so the two arrays are equal.
-/
import proofs.«121270_j17154099380376_2_alg».proof.ReferenceIdeal
import proofs.«121270_j17154099380376_2_alg».proof.Proof.Gen.ReferenceIdeal
import proofs.«121270_j17154099380376_2_alg».proof.Proof.MatmulRegion
import proofs.«121270_j17154099380376_2_alg».proof.Proof.BiasReluRegion
import proofs.«121270_j17154099380376_2_alg».proof.Proof.GcnOps
import proofs.«121270_j17154099380376_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ProductForms

open Idealize.ShloMosaic Idealize.ShloMosaic.ValueIdx

/-- The host's first product is the row-blocked product of the same two arrays. -/
theorem first_product (a0 : FVec Ideal Cert.ReferenceIdeal.S100000x128 .f32) (a3 : FVec Ideal Cert.ReferenceIdeal.S128x16 .f32) :
    Host.dotGeneral Cert.ReferenceIdeal.dot_S100000x128_S128x16_S100000x16_1_0_0_1_n_n none a0 a3
      = Cert.KernelIdeal.MatmulRegion.product a0 a3 := by
  funext i
  obtain ⟨p, q, rfl⟩ : ∃ (p : Fin 100000) (q : Fin 16), i = ix2 p q := ⟨i 0, i 1, eq_ix2 i⟩
  exact (Cert.LibPlainDot.dot_plain_apply (M := 100000) (K := 128) (N := 16)
    Cert.ReferenceIdeal.dot_S100000x128_S128x16_S100000x16_1_0_0_1_n_n rfl none a0 a3 p q).trans
    (Cert.KernelIdeal.MatmulRegion.product_apply a0 a3 p q).symm

/-- A bias vector laid out as a row and broadcast over the rows, at `(p, k)`, is the vector at `k`. -/
theorem bias_rows_apply {M C : ℕ} (h1 : (⟨1, ![C]⟩ : Shape).BroadcastsInDim ⟨2, ![1, C]⟩ ![1])
    (h2 : (⟨2, ![1, C]⟩ : Shape).BroadcastsInDim ⟨2, ![M, C]⟩ ![0, 1]) (b : (⟨1, ![C]⟩ : Shape).Idx → EReal)
    (p : Fin M) (k : Fin C) :
    broadcastInDim ⟨2, ![M, C]⟩ ![0, 1] h2 (broadcastInDim ⟨2, ![1, C]⟩ ![1] h1 b) (ix2 p k) = b (ix1 k) := by
  have e2 : broadcastInDim ⟨2, ![M, C]⟩ ![0, 1] h2 (broadcastInDim ⟨2, ![1, C]⟩ ![1] h1 b) (ix2 p k)
      = broadcastInDim ⟨2, ![1, C]⟩ ![1] h1 b (ix2 (0 : Fin 1) k) := by
    refine broadcastInDim_apply ![0, 1] h2 _ (ix2 p k) (ix2 (0 : Fin 1) k) fun a => ?_
    match a with
    | ⟨0, _⟩ => rfl
    | ⟨1, _⟩ =>
      show k.val = if C = 1 then 0 else k.val
      split
      · have := k.isLt; omega
      · rfl
  have e1 : broadcastInDim ⟨2, ![1, C]⟩ ![1] h1 b (ix2 (0 : Fin 1) k) = b (ix1 k) := by
    refine broadcastInDim_apply ![1] h1 b (ix2 (0 : Fin 1) k) (ix1 k) fun a => ?_
    match a with
    | ⟨0, _⟩ =>
      show k.val = if C = 1 then 0 else k.val
      split
      · have := k.isLt; omega
      · rfl
  rw [e2, e1]

/-- The host's rectified, biased array at `(p, k)`. -/
theorem hidden_apply (hb1 : Cert.ReferenceIdeal.S16.BroadcastsInDim Cert.ReferenceIdeal.S1x16 ![1])
    (hb2 : Cert.ReferenceIdeal.S1x16.BroadcastsInDim Cert.ReferenceIdeal.S100000x16 ![0, 1])
    (hz : Cert.ReferenceIdeal.S_.BroadcastsInDim Cert.ReferenceIdeal.S100000x16 ![])
    (x : FVec Ideal Cert.ReferenceIdeal.S100000x16 .f32) (a4 : FVec Ideal Cert.ReferenceIdeal.S16 .f32)
    (p : Fin 100000) (k : Fin 16) :
    maximumf (Cert.Gcn.addBias hb1 hb2 x a4)
        (broadcastInDim Cert.ReferenceIdeal.S100000x16 ![] hz (constant (F := Ideal) Cert.ReferenceIdeal.S_ .f32 0x00000000#32))
        (ix2 p k)
      = max (x (ix2 p k) + a4 (ix1 k)) 0 := by
  show max (x (ix2 p k) + broadcastInDim ⟨2, ![100000, 16]⟩ ![0, 1] hb2 (broadcastInDim ⟨2, ![1, 16]⟩ ![1] hb1 a4) (ix2 p k))
      (Ideal.ofBits .f32 0x00000000#32) = _
  rw [bias_rows_apply hb1 hb2 a4 p k, Ideal.ofBits_zero_f32]

/-- The host's second product is the row-blocked product of the same arrays, the bias vector cast to a row, whatever the
    proofs of the layout side conditions. -/
theorem second_product_of (hb1 : Cert.ReferenceIdeal.S16.BroadcastsInDim Cert.ReferenceIdeal.S1x16 ![1])
    (hb2 : Cert.ReferenceIdeal.S1x16.BroadcastsInDim Cert.ReferenceIdeal.S100000x16 ![0, 1])
    (hz : Cert.ReferenceIdeal.S_.BroadcastsInDim Cert.ReferenceIdeal.S100000x16 ![])
    (hc : Cert.KernelIdeal.S16.ShapeCasts Cert.KernelIdeal.S1x16)
    (x : FVec Ideal Cert.ReferenceIdeal.S100000x16 .f32) (a4 : FVec Ideal Cert.ReferenceIdeal.S16 .f32)
    (a5 : FVec Ideal Cert.ReferenceIdeal.S16x8 .f32) :
    Host.dotGeneral Cert.ReferenceIdeal.dot_S100000x16_S16x8_S100000x8_1_0_0_1_n_n none
        (maximumf (Cert.Gcn.addBias hb1 hb2 x a4)
          (broadcastInDim Cert.ReferenceIdeal.S100000x16 ![] hz (constant Cert.ReferenceIdeal.S_ .f32 0x00000000#32))) a5
      = Cert.KernelIdeal.BiasReluRegion.biasReluProduct x (shapeCast Cert.KernelIdeal.S1x16 a4 hc) a5 := by
  funext i
  obtain ⟨p, q, rfl⟩ : ∃ (p : Fin 100000) (q : Fin 8), i = ix2 p q := ⟨i 0, i 1, eq_ix2 i⟩
  refine (Cert.LibPlainDot.dot_plain_apply (M := 100000) (K := 16) (N := 8)
    Cert.ReferenceIdeal.dot_S100000x16_S16x8_S100000x8_1_0_0_1_n_n rfl none _ a5 p q).trans ?_
  refine Eq.trans ?_ (Cert.KernelIdeal.BiasReluRegion.biasReluProduct_apply x (shapeCast Cert.KernelIdeal.S1x16 a4 hc) a5 p q).symm
  refine Finset.sum_congr rfl fun k _ => ?_
  rw [hidden_apply hb1 hb2 hz x a4 p k, shapeCast_a_1a_apply (a := 16) a4 hc (0 : Fin 1) k]

/-- The host's second product is the row-blocked product of the same arrays, the bias vector cast to a row. -/
theorem second_product (x : FVec Ideal Cert.ReferenceIdeal.S100000x16 .f32) (a4 : FVec Ideal Cert.ReferenceIdeal.S16 .f32)
    (a5 : FVec Ideal Cert.ReferenceIdeal.S16x8 .f32) :
    Host.dotGeneral Cert.ReferenceIdeal.dot_S100000x16_S16x8_S100000x8_1_0_0_1_n_n none
        (maximumf (Cert.Gcn.addBias Cert.ReferenceIdeal.Gen.bcast_S16_S1x16_1 Cert.ReferenceIdeal.Gen.bcast_S1x16_S100000x16_0_1 x a4)
          (broadcastInDim Cert.ReferenceIdeal.S100000x16 ![] Cert.ReferenceIdeal.Gen.bcast_S_S100000x16
            (constant Cert.ReferenceIdeal.S_ .f32 0x00000000#32))) a5
      = Cert.KernelIdeal.BiasReluRegion.biasReluProduct x
          (shapeCast Cert.KernelIdeal.S1x16 a4 Cert.KernelIdeal.Gen.shapeCasts_S16_S1x16) a5 :=
  second_product_of _ _ _ _ x a4 a5

end Cert.ProductForms

end
-- ==== Proof.Bridge.lean ====
/-
  The reference's result is the kernel's, as functions of the argument arrays.

  The reference works on the edge list with every node's unit self-loop appended; the kernel on the given edges, with
  the self-loops' share added in closed form. The weighted in-degree of the lengthened list is the given edges' plus one
  per node, so the two inverse square roots of the degree are one array; with it, each layer's aggregate over the
  lengthened list is the given edges' aggregate plus the features times the squared inverse root — the appended edge of
  node j lands in j only, reads row j and is normalised by dis j · 1 · dis j. The features entering the aggregations are
  the same matrix products (a sum over the contracted axis, whatever the blocking by rows), the second taken of the first
  layer's output with its bias added and clamped at zero on either side.
-/
import proofs.«121270_j17154099380376_2_alg».proof.Proof.KernelHost
import proofs.«121270_j17154099380376_2_alg».proof.Proof.RefValue
import proofs.«121270_j17154099380376_2_alg».proof.Proof.GcnSelfLoops
import proofs.«121270_j17154099380376_2_alg».proof.Proof.ProductForms

set_option maxRecDepth 16384

noncomputable section

namespace Cert.Bridge

open Idealize.ShloMosaic Cert.Gcn

/-- The weighted in-degree with the self-loops appended is the given edges' in-degree plus one per node. -/
theorem deg_eq (a1 : IVec Cert.KernelIdeal.S2x1600000 32) (a2 : FVec Ideal Cert.KernelIdeal.S1600000 .f32) :
    Cert.ReferenceIdeal.RefValue.degR a1 a2 = Cert.KernelIdeal.HostValue.degK a1 a2 := by
  unfold Cert.ReferenceIdeal.RefValue.degR Cert.KernelIdeal.HostValue.degK Cert.ReferenceIdeal.RefValue.cat Cert.ReferenceIdeal.RefValue.iotaNd
  exact degSum_selfLoops (n := 1600000) (n' := 1700000) (by norm_num)
    Cert.ReferenceIdeal.Facts₀.concatenates_S1600000_S100000_S1700000_d0
    Cert.KernelIdeal.Facts₀.scatter_S100000_S1600000x1_S1600000_n_0_0_1_wf _ rfl
    Cert.ReferenceIdeal.Facts₀.scatter_S100000_S1700000x1_S1700000_n_0_0_1_wf _ rfl
    Cert.ReferenceIdeal.Facts₀.bcast_S_S100000 Cert.KernelIdeal.Facts₀.bcast_S1600000_S1600000x1_0
    Cert.ReferenceIdeal.Facts₀.bcast_S1700000_S1700000x1_0 (Cert.KernelIdeal.HostValue.dstW a1) a2 Cert.ReferenceIdeal.RefValue.onesNd

/-- So the inverse square roots of the degree are one array. -/
theorem dis_eq (a1 : IVec Cert.KernelIdeal.S2x1600000 32) (a2 : FVec Ideal Cert.KernelIdeal.S1600000 .f32) :
    Cert.ReferenceIdeal.RefValue.disR a1 a2 = Cert.KernelIdeal.HostValue.disK a1 a2 := by
  unfold Cert.ReferenceIdeal.RefValue.disR Cert.KernelIdeal.HostValue.disK
  rw [deg_eq]

/-- A layer's aggregate on 16 features over the lengthened edge list is the given edges' plus the self-loops' share. -/
theorem agg16_eq (h : FVec Ideal Cert.KernelIdeal.S100000x16 .f32) (a1 : IVec Cert.KernelIdeal.S2x1600000 32) (a2 : FVec Ideal Cert.KernelIdeal.S1600000 .f32) :
    Cert.ReferenceIdeal.RefValue.aggR16 h a1 a2 = Cert.KernelIdeal.HostValue.aggK16 h (Cert.KernelIdeal.HostValue.srcW a1) (Cert.KernelIdeal.HostValue.dstW a1) (Cert.KernelIdeal.HostValue.nrmK a1 a2) (Cert.KernelIdeal.HostValue.disK a1 a2) := by
  unfold Cert.ReferenceIdeal.RefValue.aggR16 Cert.ReferenceIdeal.RefValue.nrmR Cert.KernelIdeal.HostValue.aggK16 Cert.KernelIdeal.HostValue.nrmK Cert.ReferenceIdeal.RefValue.cat Cert.ReferenceIdeal.RefValue.iotaNd
  rw [dis_eq]
  exact aggSum_selfLoops (C := 16) (n := 1600000) (n' := 1700000) (by norm_num)
    Cert.ReferenceIdeal.Facts₀.concatenates_S1600000_S100000_S1700000_d0
    Cert.KernelIdeal.Facts₀.scatter_S100000x16_S1600000x1_S1600000x16_1_0_0_1_wf
    Cert.KernelIdeal.Facts₀.gather_S100000x16_S1600000x1_S1600000x16_1_0_n_n_0_1_116_wf _ rfl _ rfl
    Cert.KernelIdeal.Facts₀.gather_S100000_S1600000x1_S1600000_n_0_n_n_0_1_1_wf _ rfl
    Cert.ReferenceIdeal.Facts₀.scatter_S100000x16_S1700000x1_S1700000x16_1_0_0_1_wf
    Cert.ReferenceIdeal.Facts₀.gather_S100000x16_S1700000x1_S1700000x16_1_0_n_n_0_1_116_wf _ rfl _ rfl
    Cert.ReferenceIdeal.Facts₀.gather_S100000_S1700000x1_S1700000_n_0_n_n_0_1_1_wf _ rfl
    Cert.ReferenceIdeal.Facts₀.bcast_S_S100000x16
    Cert.KernelIdeal.Facts₀.bcast_S_S1600000 Cert.KernelIdeal.Facts₀.bcast_S1600000_S1600000x1_0
    Cert.KernelIdeal.Facts₀.bcast_S1600000x1_S1600000x16_0_1
    Cert.ReferenceIdeal.Facts₀.bcast_S_S1700000 Cert.ReferenceIdeal.Facts₀.bcast_S1700000_S1700000x1_0
    Cert.ReferenceIdeal.Facts₀.bcast_S1700000x1_S1700000x16_0_1
    Cert.KernelIdeal.Facts₀.bcast_S100000_S100000x1_0 Cert.KernelIdeal.Facts₀.bcast_S100000x1_S100000x16_0_1
    h (Cert.KernelIdeal.HostValue.disK a1 a2) (Cert.KernelIdeal.HostValue.srcW a1) (Cert.KernelIdeal.HostValue.dstW a1) a2 Cert.ReferenceIdeal.RefValue.onesNd (fun i => ones_apply _ i)

/-- The same on 8 features. -/
theorem agg8_eq (h : FVec Ideal Cert.KernelIdeal.S100000x8 .f32) (a1 : IVec Cert.KernelIdeal.S2x1600000 32) (a2 : FVec Ideal Cert.KernelIdeal.S1600000 .f32) :
    Cert.ReferenceIdeal.RefValue.aggR8 h a1 a2 = Cert.KernelIdeal.HostValue.aggK8 h (Cert.KernelIdeal.HostValue.srcW a1) (Cert.KernelIdeal.HostValue.dstW a1) (Cert.KernelIdeal.HostValue.nrmK a1 a2) (Cert.KernelIdeal.HostValue.disK a1 a2) := by
  unfold Cert.ReferenceIdeal.RefValue.aggR8 Cert.ReferenceIdeal.RefValue.nrmR Cert.KernelIdeal.HostValue.aggK8 Cert.KernelIdeal.HostValue.nrmK Cert.ReferenceIdeal.RefValue.cat Cert.ReferenceIdeal.RefValue.iotaNd
  rw [dis_eq]
  exact aggSum_selfLoops (C := 8) (n := 1600000) (n' := 1700000) (by norm_num)
    Cert.ReferenceIdeal.Facts₀.concatenates_S1600000_S100000_S1700000_d0
    Cert.KernelIdeal.Facts₀.scatter_S100000x8_S1600000x1_S1600000x8_1_0_0_1_wf
    Cert.KernelIdeal.Facts₀.gather_S100000x8_S1600000x1_S1600000x8_1_0_n_n_0_1_18_wf _ rfl _ rfl
    Cert.KernelIdeal.Facts₀.gather_S100000_S1600000x1_S1600000_n_0_n_n_0_1_1_wf _ rfl
    Cert.ReferenceIdeal.Facts₀.scatter_S100000x8_S1700000x1_S1700000x8_1_0_0_1_wf
    Cert.ReferenceIdeal.Facts₀.gather_S100000x8_S1700000x1_S1700000x8_1_0_n_n_0_1_18_wf _ rfl _ rfl
    Cert.ReferenceIdeal.Facts₀.gather_S100000_S1700000x1_S1700000_n_0_n_n_0_1_1_wf _ rfl
    Cert.ReferenceIdeal.Facts₀.bcast_S_S100000x8
    Cert.KernelIdeal.Facts₀.bcast_S_S1600000 Cert.KernelIdeal.Facts₀.bcast_S1600000_S1600000x1_0
    Cert.KernelIdeal.Facts₀.bcast_S1600000x1_S1600000x8_0_1
    Cert.ReferenceIdeal.Facts₀.bcast_S_S1700000 Cert.ReferenceIdeal.Facts₀.bcast_S1700000_S1700000x1_0
    Cert.ReferenceIdeal.Facts₀.bcast_S1700000x1_S1700000x8_0_1
    Cert.KernelIdeal.Facts₀.bcast_S100000_S100000x1_0 Cert.KernelIdeal.Facts₀.bcast_S100000x1_S100000x8_0_1
    h (Cert.KernelIdeal.HostValue.disK a1 a2) (Cert.KernelIdeal.HostValue.srcW a1) (Cert.KernelIdeal.HostValue.dstW a1) a2 Cert.ReferenceIdeal.RefValue.onesNd (fun i => ones_apply _ i)

/-- The two programs' results are one function of the argument arrays. -/
theorem outR_eq_outK (a0 : FVec Ideal Cert.KernelIdeal.S100000x128 .f32) (a1 : IVec Cert.KernelIdeal.S2x1600000 32) (a2 : FVec Ideal Cert.KernelIdeal.S1600000 .f32)
    (a3 : FVec Ideal Cert.KernelIdeal.S128x16 .f32) (a4 : FVec Ideal Cert.KernelIdeal.S16 .f32) (a5 : FVec Ideal Cert.KernelIdeal.S16x8 .f32) (a6 : FVec Ideal Cert.KernelIdeal.S8 .f32) :
    Cert.ReferenceIdeal.RefValue.outR a0 a1 a2 a3 a4 a5 a6 = Cert.KernelIdeal.HostValue.outK a0 a1 a2 a3 a4 a5 a6 := by
  have e1 : Cert.ReferenceIdeal.RefValue.aggR16 (Host.dotGeneral Cert.ReferenceIdeal.dot_S100000x128_S128x16_S100000x16_1_0_0_1_n_n none a0 a3) a1 a2
      = Cert.KernelIdeal.HostValue.aggK16 (Cert.KernelIdeal.MatmulRegion.product a0 a3) (Cert.KernelIdeal.HostValue.srcW a1) (Cert.KernelIdeal.HostValue.dstW a1) (Cert.KernelIdeal.HostValue.nrmK a1 a2) (Cert.KernelIdeal.HostValue.disK a1 a2) := by
    rw [Cert.ProductForms.first_product]
    exact agg16_eq _ a1 a2
  have e2 : Host.dotGeneral Cert.ReferenceIdeal.dot_S100000x16_S16x8_S100000x8_1_0_0_1_n_n none (Cert.ReferenceIdeal.RefValue.hiddenR a0 a1 a2 a3 a4) a5
      = Cert.KernelIdeal.BiasReluRegion.biasReluProduct
          (Cert.KernelIdeal.HostValue.aggK16 (Cert.KernelIdeal.MatmulRegion.product a0 a3) (Cert.KernelIdeal.HostValue.srcW a1) (Cert.KernelIdeal.HostValue.dstW a1) (Cert.KernelIdeal.HostValue.nrmK a1 a2) (Cert.KernelIdeal.HostValue.disK a1 a2))
          (shapeCast Cert.KernelIdeal.S1x16 a4 Cert.KernelIdeal.Facts₀.shapeCasts_S16_S1x16) a5 := by
    unfold Cert.ReferenceIdeal.RefValue.hiddenR
    rw [e1]
    exact Cert.ProductForms.second_product_of _ _ _ _ _ a4 a5
  unfold Cert.ReferenceIdeal.RefValue.outR Cert.KernelIdeal.HostValue.outK
  rw [e2, agg8_eq]

end Cert.Bridge

end
-- ==== Proof.lean ====
/-
  The claim: the kernel — two row-blocked matrix products on the matrix unit around the edge phase of a two-layer graph
  convolution, with every node's unit self-loop handled in closed form (one added to the degree, the features times the
  squared inverse root of the degree added to the aggregate) — against the reference, which appends the self-loops to the
  edge list and treats them like any other edge.

  Over the extended reals the two agree: the appended edge of node j has both end points j, so it lands in node j only,
  reads row j, and is normalised by dis j · 1 · dis j; a finite sum over the lengthened edge list splits into the sum
  over the given edges and that one term; and the matrix products, a sum over the contracted axis on either side, do not
  depend on the blocking by rows. Only the associativity and commutativity of the sum and x · 1 = x are used, so the
  precondition is not opened. The three frames are the generated frame runs (the reference's its generated run with the
  result dropped); the ideal pass rewrote nothing, so `preserves` is trivial.
-/
import proofs.«121270_j17154099380376_2_alg».proof.Defs
import proofs.«121270_j17154099380376_2_alg».proof.Proof.Gen.Kernel
import proofs.«121270_j17154099380376_2_alg».proof.Proof.Gen.Kernel.Frame
import proofs.«121270_j17154099380376_2_alg».proof.Proof.Gen.KernelIdeal
import proofs.«121270_j17154099380376_2_alg».proof.Proof.Gen.KernelIdeal.Frame
import proofs.«121270_j17154099380376_2_alg».proof.Proof.Gen.ReferenceIdeal
import proofs.«121270_j17154099380376_2_alg».proof.Proof.Gen.ReferenceIdeal.Run
import proofs.«121270_j17154099380376_2_alg».proof.Proof.Gen.ReferenceIdeal.Read
import proofs.«121270_j17154099380376_2_alg».proof.Proof.Gen.Pre_finite_inputs
import proofs.«121270_j17154099380376_2_alg».proof.Proof.KernelRun
import proofs.«121270_j17154099380376_2_alg».proof.Proof.KernelHost
import proofs.«121270_j17154099380376_2_alg».proof.Proof.RefValue
import proofs.«121270_j17154099380376_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the same function of the argument arrays. -/
theorem algebraic : Cert.algebraic_KernelIdeal_ReferenceIdeal := by
  intro m ρ m' ρ' _ hagree
  refine ⟨fun c => Cert.KernelIdeal.HostValue.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostValue.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2]
    exact Cert.Bridge.outR_eq_outK _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
